-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x1600000 : Shape := ⟨2, ![2, 1600000]⟩
abbrev S100000 : Shape := ⟨1, ![100000]⟩
abbrev S11x128 : Shape := ⟨2, ![11, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x128 : S_.BroadcastsInDim S11x128 (![] : Fin 0 → Fin S11x128.rank)
  reducesTo_S11x128_S_d0_1 : S11x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S128 .f32) (main_arg10 : FVec F S128x64 .f32) (main_arg11 : FVec F S64 .f32) (main_arg12 : FVec F S64x1 .f32) (main_arg13 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg10
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg12
  let main_cst_18 : FVec F S_ .f32 := constant S_ .f32 0x7F800000#32
  let main_v50 : FVec F S64x1 .f32 := broadcastInDim S64x1 ![] bcast_S_S64x1 main_cst_18
  fn_part3 (F := F) main_arg13 main_v48 main_v49 main_v50

def fn_part1 {F : FTy → Type} [FloatOps F] (main_arg6 : FVec F S3x128x128 .f32) (main_arg7 : FVec F S3x128 .f32) (main_arg8 : FVec F S128x128 .f32) (main_arg9 : FVec F S128 .f32) (main_arg10 : FVec F S128x64 .f32) (main_arg11 : FVec F S64 .f32) (main_arg12 : FVec F S64x1 .f32) (main_arg13 : FVec F S1 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x11 .f32) (main_arg1 : IVec S2x1600000 32) (main_arg2 : IVec S100000 32) (main_arg3 : FVec F S11x128 .f32) (main_arg4 : FVec F S128 .f32) (main_arg5 : FVec F S3x128x128 .f32) (main_arg6 : FVec F S3x128x128 .f32) (main_arg7 : FVec F S3x128 .f32) (main_arg8 : FVec F S128x128 .f32) (main_arg9 : FVec F S128 .f32) (main_arg10 : FVec F S128x64 .f32) (main_arg11 : FVec F S64 .f32) (main_arg12 : FVec F S64x1 .f32) (main_arg13 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x128 .f32 := Host.absf main_arg3
  let main_cst_0 : FVec F S_ .f32 := constant S_ .f32 0x7F800000#32
  let main_v5 : FVec F S11x128 .f32 := broadcastInDim S11x128 ![] bcast_S_S11x128 main_cst_0
  let main_v6 : IVec S11x128 1 := cmpf .olt main_v4 main_v5
  let main_c_1 : IVec S_ 1 := constantI S_ 1 1#1
  let main_v7 : IVec S_ 1 := (fun x v => Host.reduce IntOp.andi x v reducesTo_S11x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_arg9 main_arg10 main_arg11 main_arg12 main_arg13 main_v13 main_v16
-- ==== Kernel.lean ====
abbrev S100000x11 : Shape := ⟨2, ![100000, 11]⟩
abbrev S2x1600000 : Shape := ⟨2, ![2, 1600000]⟩
abbrev S100000 : Shape := ⟨1, ![100000]⟩
abbrev S11x128 : Shape := ⟨2, ![11, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x128 : Shape := ⟨2, ![1, 128]⟩
abbrev S100000x128 : Shape := ⟨2, ![100000, 128]⟩
abbrev S5000x11 : Shape := ⟨2, ![5000, 11]⟩
abbrev S5000x128 : Shape := ⟨2, ![5000, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S4096 : Shape := ⟨1, ![4096]⟩
abbrev S100000x1 : Shape := ⟨2, ![100000, 1]⟩
abbrev S4096x128 : Shape := ⟨2, ![4096, 128]⟩
abbrev S4096x1 : Shape := ⟨2, ![4096, 1]⟩
abbrev S1x64 : Shape := ⟨2, ![1, 64]⟩
abbrev S1x1 : Shape := ⟨2, ![1, 1]⟩
abbrev S4096x64 : Shape := ⟨2, ![4096, 64]⟩

abbrev nBuf : Space → Nat
  | .hbm => 103
  | .vmem => 41
  | .smem => 0
  | _ => 0

abbrev bufTy : (tb : Table) → Fin (tcTables nBuf tb) → BufTy
  | .hbm, ⟨0, _⟩ => ⟨S100000x11, .f32⟩
  | .hbm, ⟨1, _⟩ => ⟨S2x1600000, .i32⟩
  | .hbm, ⟨2, _⟩ => ⟨S100000, .i32⟩
  | .hbm, ⟨3, _⟩ => ⟨S11x128, .f32⟩
  | .hbm, ⟨4, _⟩ => ⟨S128, .f32⟩
  | .hbm, ⟨5, _⟩ => ⟨S3x128x128, .f32⟩
  | .hbm, ⟨6, _⟩ => ⟨S3x128x128, .f32⟩
  | .hbm, ⟨7, _⟩ => ⟨S3x128, .f32⟩
  | .hbm, ⟨8, _⟩ => ⟨S128x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S1x128, .f32⟩
  | .hbm, ⟨15, _⟩ => ⟨S100000x128, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S1x128x128, .f32⟩
  | .hbm, ⟨34, _⟩ => ⟨S128x128, .f32⟩
  | .hbm, ⟨35, _⟩ => ⟨S1x128x128, .f32⟩
  | .hbm, ⟨36, _⟩ => ⟨S128x128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S1x128x128, .f32⟩
  | .hbm, ⟨55, _⟩ => ⟨S128x128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S1x128x128, .f32⟩
  | .hbm, ⟨76, _⟩ => ⟨S128x128, .f32⟩
  | .hbm, ⟨77, _⟩ => ⟨S1x128x128, .f32⟩
  | .hbm, ⟨78, _⟩ => ⟨S128x128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S100000x128, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S4096, .f32⟩
  | .hbm, ⟨87, _⟩ => ⟨S100000x1, .i32⟩
  | .hbm, ⟨88, _⟩ => ⟨S4096, .f32⟩
  | .hbm, ⟨89, _⟩ => ⟨S_, .f32⟩
  | .hbm, ⟨90, _⟩ => ⟨S4096x128, .f32⟩
  | .hbm, ⟨91, _⟩ => ⟨S100000x1, .i32⟩
  | .hbm, ⟨92, _⟩ => ⟨S4096x128, .f32⟩
  | .hbm, ⟨93, _⟩ => ⟨S_, .f32⟩
  | .hbm, ⟨94, _⟩ => ⟨S4096, .f32⟩
  | .hbm, ⟨95, _⟩ => ⟨S4096, .f32⟩
  | .hbm, ⟨96, _⟩ => ⟨S4096x1, .f32⟩
  | .hbm, ⟨97, _⟩ => ⟨S4096x128, .f32⟩
  | .hbm, ⟨98, _⟩ => ⟨S4096x128, .f32⟩
  | .hbm, ⟨99, _⟩ => ⟨S1x128, .f32⟩
  | .hbm, ⟨100, _⟩ => ⟨S1x64, .f32⟩
  | .hbm, ⟨101, _⟩ => ⟨S1x1, .f32⟩
  | .hbm, ⟨102, _⟩ => ⟨S4096x1, .f32⟩
  | .local _ .vmem, ⟨0, _⟩ => ⟨S5000x11, .f32⟩
  | .local _ .vmem, ⟨1, _⟩ => ⟨S5000x11, .f32⟩
  | .local _ .vmem, ⟨2, _⟩ => ⟨S11x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | .local _ .vmem, ⟨33, _⟩ => ⟨S4096x128, .f32⟩
  | .local _ .vmem, ⟨34, _⟩ => ⟨S128x128, .f32⟩
  | .local _ .vmem, ⟨35, _⟩ => ⟨S1x128, .f32⟩
  | .local _ .vmem, ⟨36, _⟩ => ⟨S128x64, .f32⟩
  | .local _ .vmem, ⟨37, _⟩ => ⟨S1x64, .f32⟩
  | .local _ .vmem, ⟨38, _⟩ => ⟨S64x1, .f32⟩
  | .local _ .vmem, ⟨39, _⟩ => ⟨S1x1, .f32⟩
  | .local _ .vmem, ⟨40, _⟩ => ⟨S4096x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_v6 : Ref sig .tc := ⟨.hbm, 21, rfl⟩
abbrev main_v7 : Ref sig .tc := ⟨.hbm, 22, rfl⟩
abbrev main_c_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_1 : Ref sig .tc := ⟨.hbm, 41, rfl⟩
abbrev main_v24 : Ref sig .tc := ⟨.hbm, 42, rfl⟩
abbrev main_v25 : Ref sig .tc := ⟨.hbm, 43, rfl⟩
abbrev main_c_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_4 : Ref sig .tc := ⟨.hbm, 62, rfl⟩
abbrev main_v42 : Ref sig .tc := ⟨.hbm, 63, rfl⟩
abbrev main_v43 : Ref sig .tc := ⟨.hbm, 64, rfl⟩
abbrev main_c_5 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_6 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_7 : Ref sig .tc := ⟨.hbm, 83, rfl⟩
abbrev main_v60 : Ref sig .tc := ⟨.hbm, 84, rfl⟩
abbrev main_cst_8 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_10 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc3_stg5_1 : Ref sig .tc := ⟨.vmem, 32, rfl⟩
abbrev cc4_stg0_0 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg4_0 : Ref sig .tc := ⟨.vmem, 37, rfl⟩
abbrev cc4_stg5_0 : Ref sig .tc := ⟨.vmem, 38, rfl⟩
abbrev cc4_stg6_0 : Ref sig .tc := ⟨.vmem, 39, rfl⟩
abbrev cc4_stg7_0 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem3_0 : DmaSem sig := 29
abbrev cc3_sem4_0 : DmaSem sig := 30
abbrev cc3_sem5_0 : DmaSem sig := 31
abbrev cc3_sem5_1 : DmaSem sig := 32
abbrev cc4_sem0_0 : DmaSem sig := 33
abbrev cc4_sem1_0 : DmaSem sig := 34
abbrev cc4_sem2_0 : DmaSem sig := 35
abbrev cc4_sem3_0 : DmaSem sig := 36
abbrev cc4_sem4_0 : DmaSem sig := 37
abbrev cc4_sem5_0 : DmaSem sig := 38
abbrev cc4_sem6_0 : DmaSem sig := 39
abbrev cc4_sem7_0 : DmaSem sig := 40

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S11x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S4096x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S4096x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  shapeCasts_S128_S1x128 : S128.ShapeCasts S1x128
  inb_S5000x11_S5000x11_0_0 : ∀ a, (![0, 0] : Fin 2 → Nat) a + S5000x11.size a ≤ S5000x11.size a
  h_S5000x11 : 0 < S5000x11.numel
  bitsLt_bf16_f32 : FTy.bits .bf16 < FTy.bits .f32
  inb_S11x128_S11x128_0_0 : ∀ a, (![0, 0] : Fin 2 → Nat) a + S11x128.size a ≤ S11x128.size a
  h_S11x128 : 0 < S11x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S100000 : S_.BroadcastsInDim S100000 (![] : Fin 0 → Fin S100000.rank)
  bcast_S_S4096 : S_.BroadcastsInDim S4096 (![] : Fin 0 → Fin S4096.rank)
  bcast_S100000_S100000x1_0 : S100000.BroadcastsInDim S100000x1 (![0] : Fin 1 → Fin S100000x1.rank)
  bcast_S_S4096x128 : S_.BroadcastsInDim S4096x128 (![] : Fin 0 → Fin S4096x128.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  shapeCasts_S64_S1x64 : S64.ShapeCasts S1x64
  shapeCasts_S1_S1x1 : S1.ShapeCasts S1x1
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  broadcasts_S1x128_S4096x128 : S1x128.Broadcasts S4096x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  dot_S5000x11_S11x128_S5000x128_1_0_0_1_n_n_wf : DotDims.WF S5000x11 S11x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S4096_S100000x1_S100000_n_0_0_1_wf : ScatterDims.WF S4096 S100000x1 S100000 [] [0] [0] 1
  scatter_S4096x128_S100000x1_S100000x128_1_0_0_1_wf : ScatterDims.WF S4096x128 S100000x1 S100000x128 [1] [0] [0] 1
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x11.size a ≤ S100000x11.size a
  hwx0_0 : ∀ i : grid0.Coords, EltTy.bits .f32 = 32 ∨ (Rect.block (s := S100000x11) S5000x11.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S11x128.size a ≤ S11x128.size a
  hwx0_1 : ∀ i : grid0.Coords, EltTy.bits .f32 = 32 ∨ (Rect.block (s := S11x128) S11x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S4096x128.size a
  hwx4_0 : ∀ i : grid4.Coords, EltTy.bits .f32 = 32 ∨ (Rect.block (s := S4096x128) S4096x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x64.size a ≤ S128x64.size a
  hwx4_3 : ∀ i : grid4.Coords, EltTy.bits .f32 = 32 ∨ (Rect.block (s := S128x64) S128x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x1.size a ≤ S64x1.size a
  hwx4_5 : ∀ i : grid4.Coords, EltTy.bits .f32 = 32 ∨ (Rect.block (s := S64x1) S64x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S4096x1.size a ≤ S4096x1.size a
  hwx4_7 : ∀ i : grid4.Coords, EltTy.bits .f32 = 32 ∨ (Rect.block (s := S4096x1) S4096x1.size (cc4_transform_7 i) (hinb4_7 i)).WholeWords (EltTy.packing .f32)

variable [Facts₀]

def dot_S5000x11_S11x128_S5000x128_1_0_0_1_n_n : DotDims S5000x11 S11x128 S5000x128 where
  lhsContracting := [1]
  rhsContracting := [0]
  lhsNonContracting := [0]
  rhsNonContracting := [1]
  lhsBatch := []
  rhsBatch := []
  wf := dot_S5000x11_S11x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_arg0) S5000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S11x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v35) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v51) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v41) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v58) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v59) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v71) S4096x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg10) S128x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v73) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg12) S64x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v74) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v75) S4096x1.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x11 : Shape := ⟨2, ![100000, 11]⟩
abbrev S2x1600000 : Shape := ⟨2, ![2, 1600000]⟩
abbrev S100000 : Shape := ⟨1, ![100000]⟩
abbrev S11x128 : Shape := ⟨2, ![11, 128]⟩
abbrev S128 : Shape := ⟨1, ![128]⟩
abbrev S3x128x128 : Shape := ⟨3, ![3, 128, 128]⟩
abbrev S3x128 : Shape := ⟨2, ![3, 128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000x128 : Shape := ⟨2, ![100000, 128]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128x128 : Shape := ⟨3, ![1, 128, 128]⟩
abbrev S4096 : Shape := ⟨1, ![4096]⟩
abbrev S100000x1 : Shape := ⟨2, ![100000, 1]⟩
abbrev S4096x128 : Shape := ⟨2, ![4096, 128]⟩
abbrev S4096x1 : Shape := ⟨2, ![4096, 1]⟩
abbrev S4096x64 : Shape := ⟨2, ![4096, 64]⟩
abbrev S1x64 : Shape := ⟨2, ![1, 64]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S100000x11, .f32⟩
  | 1 => ⟨S2x1600000, .i32⟩
  | 2 => ⟨S100000, .i32⟩
  | 3 => ⟨S11x128, .f32⟩
  | 4 => ⟨S128, .f32⟩
  | 5 => ⟨S3x128x128, .f32⟩
  | 6 => ⟨S3x128x128, .f32⟩
  | 7 => ⟨S3x128, .f32⟩
  | 8 => ⟨S128x128, .f32⟩
  | 9 => ⟨S128, .f32⟩
  | 10 => ⟨S128x64, .f32⟩
  | 11 => ⟨S64, .f32⟩
  | 12 => ⟨S64x1, .f32⟩
  | 13 => ⟨S1, .f32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | 21 => ⟨S1x1600000, .i32⟩
  | 22 => ⟨S1600000, .i32⟩
  | 23 => ⟨S1x1600000, .i32⟩
  | 24 => ⟨S1600000, .i32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S1x128x128, .f32⟩
  | 39 => ⟨S128x128, .f32⟩
  | 40 => ⟨S100000x128, .f32⟩
  | 41 => ⟨S1x128x128, .f32⟩
  | 42 => ⟨S128x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S1x128x128, .f32⟩
  | 67 => ⟨S128x128, .f32⟩
  | 68 => ⟨S100000x128, .f32⟩
  | 69 => ⟨S1x128x128, .f32⟩
  | 70 => ⟨S128x128, .f32⟩
  | 71 => ⟨S100000x128, .f32⟩
  | 72 => ⟨S100000x128, .f32⟩
  | 73 => ⟨S1x128, .f32⟩
  | 74 => ⟨S128, .f32⟩
  | 75 => ⟨S1x128, .f32⟩
  | 76 => ⟨S100000x128, .f32⟩
  | 77 => ⟨S100000x128, .f32⟩
  | 78 => ⟨S_, .f32⟩
  | 79 => ⟨S100000x128, .f32⟩
  | 80 => ⟨S100000x128, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S1x128x128, .f32⟩
  | 95 => ⟨S128x128, .f32⟩
  | 96 => ⟨S100000x128, .f32⟩
  | 97 => ⟨S1x128x128, .f32⟩
  | 98 => ⟨S128x128, .f32⟩
  | 99 => ⟨S100000x128, .f32⟩
  | 100 => ⟨S100000x128, .f32⟩
  | 101 => ⟨S1x128, .f32⟩
  | 102 => ⟨S128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S_, .f32⟩
  | 110 => ⟨S100000, .f32⟩
  | 111 => ⟨S_, .f32⟩
  | 112 => ⟨S4096, .f32⟩
  | 113 => ⟨S100000x1, .i32⟩
  | 114 => ⟨S4096, .f32⟩
  | 115 => ⟨S_, .f32⟩
  | 116 => ⟨S4096x128, .f32⟩
  | 117 => ⟨S100000x1, .i32⟩
  | 118 => ⟨S4096x128, .f32⟩
  | 119 => ⟨S_, .f32⟩
  | 120 => ⟨S4096, .f32⟩
  | 121 => ⟨S4096, .f32⟩
  | 122 => ⟨S4096x1, .f32⟩
  | 123 => ⟨S4096x128, .f32⟩
  | 124 => ⟨S4096x128, .f32⟩
  | 125 => ⟨S4096x128, .f32⟩
  | 126 => ⟨S1x128, .f32⟩
  | 127 => ⟨S4096x128, .f32⟩
  | _ => ⟨S100000x11, .f32⟩

abbrev hbmTy0_1 (i : Nat) : BufTy := match i % 128 with
  | 0 => ⟨S4096x128, .f32⟩
  | 1 => ⟨S_, .f32⟩
  | 2 => ⟨S4096x128, .f32⟩
  | 3 => ⟨S4096x128, .f32⟩
  | 4 => ⟨S4096x64, .f32⟩
  | 5 => ⟨S1x64, .f32⟩
  | 6 => ⟨S4096x64, .f32⟩
  | 7 => ⟨S4096x64, .f32⟩
  | 8 => ⟨S_, .f32⟩
  | 9 => ⟨S4096x64, .f32⟩
  | 10 => ⟨S4096x64, .f32⟩
  | 11 => ⟨S4096x1, .f32⟩
  | 12 => ⟨S1x1, .f32⟩
  | 13 => ⟨S4096x1, .f32⟩
  | 14 => ⟨S4096x1, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_cst : Ref sig .tc := ⟨.hbm, 18, rfl⟩
abbrev main_call0_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_c_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩
abbrev main_c_1 : Ref sig .tc := ⟨.hbm, 53, rfl⟩
abbrev main_v32 : Ref sig .tc := ⟨.hbm, 54, rfl⟩
abbrev main_v33 : Ref sig .tc := ⟨.hbm, 55, rfl⟩
abbrev main_c_2 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_v54 : Ref sig .tc := ⟨.hbm, 80, rfl⟩
abbrev main_c_4 : Ref sig .tc := ⟨.hbm, 81, rfl⟩
abbrev main_v55 : Ref sig .tc := ⟨.hbm, 82, rfl⟩
abbrev main_v56 : Ref sig .tc := ⟨.hbm, 83, rfl⟩
abbrev main_c_5 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_6 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_call3_cst : Ref sig .tc := ⟨.hbm, 106, rfl⟩
abbrev main_call3_v0 : Ref sig .tc := ⟨.hbm, 107, rfl⟩
abbrev main_v77 : Ref sig .tc := ⟨.hbm, 108, rfl⟩
abbrev main_cst_7 : Ref sig .tc := ⟨.hbm, 109, rfl⟩
abbrev main_v78 : Ref sig .tc := ⟨.hbm, 110, rfl⟩
abbrev main_cst_8 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_9 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_10 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_call4_cst : Ref sig .tc := ⟨.hbm, 129, rfl⟩
abbrev main_call4_v0 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_call5_cst : Ref sig .tc := ⟨.hbm, 136, rfl⟩
abbrev main_call5_v0 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S100000 : S_.BroadcastsInDim S100000 (![] : Fin 0 → Fin S100000.rank)
  bcast_S_S4096 : S_.BroadcastsInDim S4096 (![] : Fin 0 → Fin S4096.rank)
  bcast_S100000_S100000x1_0 : S100000.BroadcastsInDim S100000x1 (![0] : Fin 1 → Fin S100000x1.rank)
  bcast_S_S4096x128 : S_.BroadcastsInDim S4096x128 (![] : Fin 0 → Fin S4096x128.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S1x128_S4096x128_0_1 : S1x128.BroadcastsInDim S4096x128 (![0, 1] : Fin 2 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S100000x11_S11x128_S100000x128_1_0_0_1_n_n_wf : DotDims.WF S100000x11 S11x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S4096_S100000x1_S100000_n_0_0_1_wf : ScatterDims.WF S4096 S100000x1 S100000 [] [0] [0] 1
  scatter_S4096x128_S100000x1_S100000x128_1_0_0_1_wf : ScatterDims.WF S4096x128 S100000x1 S100000x128 [1] [0] [0] 1
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []

variable [Facts₀]

def dot_S100000x11_S11x128_S100000x128_1_0_0_1_n_n : DotDims S100000x11 S11x128 S100000x128 where
  lhsContracting := [1]
  rhsContracting := [0]
  lhsNonContracting := [0]
  rhsNonContracting := [1]
  lhsBatch := []
  rhsBatch := []
  wf := dot_S100000x11_S11x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S4096_S100000x1_S100000_n_0_0_1 : ScatterDims S4096 S100000x1 S100000 where
  updateWindowDims := []
  insertedWindowDims := [0]
  scatterDimsToOperandDims := [0]
  indexVectorDim := 1
  wf := scatter_S4096_S100000x1_S100000_n_0_0_1_wf
def scatter_S4096x128_S100000x1_S100000x128_1_0_0_1 : ScatterDims S4096x128 S100000x1 S100000x128 where
  updateWindowDims := [1]
  insertedWindowDims := [0]
  scatterDimsToOperandDims := [0]
  indexVectorDim := 1
  wf := scatter_S4096x128_S100000x1_S100000x128_1_0_0_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.RunMain.lean ====
/-
  The idealized kernel's run, with its result named.

  Every weakly fair execution of the five regions and the host stretches between them terminates; the last region's
  exit contents are read off the final state, so the result buffer holds what the fold of boundary contents says it
  holds there, and the fourteen argument arrays are as launched.
-/
import proofs.«180806_j54133767798874_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents there, the arguments as launched. -/
theorem run : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.RunValue

end
-- ==== Proof.FoldArgs.lean ====
/-
  The argument arrays at the boundaries between the regions.

  No host operation and no region writes an argument array, so at every boundary of the run an argument array holds
  what it held at launch.  Stated for each argument at each boundary where a later stretch or region reads it.
-/
import proofs.«180806_j54133767798874_1_alg».proof.Proof.Gen.KernelIdeal.Frame
import Idealize.ShloMosaic.PureOps.Ideal

set_option maxRecDepth 16384

noncomputable section

namespace Cert.KernelIdeal.Fold

open Idealize.ShloMosaic Idealize.ShloMosaic.TcCoe
open Idealize.SL Idealize.SL.Sem
open Cert.KernelIdeal Cert.KernelIdeal.Gen

/-- A buffer none of a stretch's operations writes keeps its contents over the stretch. -/
macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

theorem arg0_W1 : W1 m ρ c (Proc.devRef .tc main_arg0) = m ((c : Thread nD τ).loc main_arg0) := by host_keep hostOps0
theorem arg3_W1 : W1 m ρ c (Proc.devRef .tc main_arg3) = m ((c : Thread nD τ).loc main_arg3) := by host_keep hostOps0

theorem arg1_W2 : W2 m ρ c (Proc.devRef .tc main_arg1) = m ((c : Thread nD τ).loc main_arg1) :=
  (W2_of_ne m ρ c main_arg1 (by decide)).trans (by host_keep hostOps0)

theorem arg5_W2 : W2 m ρ c (Proc.devRef .tc main_arg5) = m ((c : Thread nD τ).loc main_arg5) :=
  (W2_of_ne m ρ c main_arg5 (by decide)).trans (by host_keep hostOps0)

theorem arg5_W4 : W4 m ρ c (Proc.devRef .tc main_arg5) = m ((c : Thread nD τ).loc main_arg5) :=
  (W4_of_ne m ρ c main_arg5 (by decide)).trans
    ((show W3 m ρ c (Proc.devRef .tc main_arg5) = W2 m ρ c (Proc.devRef .tc main_arg5) by host_keep hostOps1).trans (arg5_W2 m ρ c))

theorem arg5_W6 : W6 m ρ c (Proc.devRef .tc main_arg5) = m ((c : Thread nD τ).loc main_arg5) :=
  (W6_of_ne m ρ c main_arg5 (by decide)).trans
    ((show W5 m ρ c (Proc.devRef .tc main_arg5) = W4 m ρ c (Proc.devRef .tc main_arg5) by host_keep hostOps2).trans (arg5_W4 m ρ c))

theorem arg6_W2 : W2 m ρ c (Proc.devRef .tc main_arg6) = m ((c : Thread nD τ).loc main_arg6) :=
  (W2_of_ne m ρ c main_arg6 (by decide)).trans (by host_keep hostOps0)

theorem arg6_W4 : W4 m ρ c (Proc.devRef .tc main_arg6) = m ((c : Thread nD τ).loc main_arg6) :=
  (W4_of_ne m ρ c main_arg6 (by decide)).trans
    ((show W3 m ρ c (Proc.devRef .tc main_arg6) = W2 m ρ c (Proc.devRef .tc main_arg6) by host_keep hostOps1).trans (arg6_W2 m ρ c))

theorem arg6_W6 : W6 m ρ c (Proc.devRef .tc main_arg6) = m ((c : Thread nD τ).loc main_arg6) :=
  (W6_of_ne m ρ c main_arg6 (by decide)).trans
    ((show W5 m ρ c (Proc.devRef .tc main_arg6) = W4 m ρ c (Proc.devRef .tc main_arg6) by host_keep hostOps2).trans (arg6_W4 m ρ c))

theorem arg7_W2 : W2 m ρ c (Proc.devRef .tc main_arg7) = m ((c : Thread nD τ).loc main_arg7) :=
  (W2_of_ne m ρ c main_arg7 (by decide)).trans (by host_keep hostOps0)

theorem arg7_W4 : W4 m ρ c (Proc.devRef .tc main_arg7) = m ((c : Thread nD τ).loc main_arg7) :=
  (W4_of_ne m ρ c main_arg7 (by decide)).trans
    ((show W3 m ρ c (Proc.devRef .tc main_arg7) = W2 m ρ c (Proc.devRef .tc main_arg7) by host_keep hostOps1).trans (arg7_W2 m ρ c))

theorem arg7_W6 : W6 m ρ c (Proc.devRef .tc main_arg7) = m ((c : Thread nD τ).loc main_arg7) :=
  (W6_of_ne m ρ c main_arg7 (by decide)).trans
    ((show W5 m ρ c (Proc.devRef .tc main_arg7) = W4 m ρ c (Proc.devRef .tc main_arg7) by host_keep hostOps2).trans (arg7_W4 m ρ c))

theorem arg2_W2 : W2 m ρ c (Proc.devRef .tc main_arg2) = m ((c : Thread nD τ).loc main_arg2) :=
  (W2_of_ne m ρ c main_arg2 (by decide)).trans (by host_keep hostOps0)

theorem arg2_W4 : W4 m ρ c (Proc.devRef .tc main_arg2) = m ((c : Thread nD τ).loc main_arg2) :=
  (W4_of_ne m ρ c main_arg2 (by decide)).trans
    ((show W3 m ρ c (Proc.devRef .tc main_arg2) = W2 m ρ c (Proc.devRef .tc main_arg2) by host_keep hostOps1).trans (arg2_W2 m ρ c))

theorem arg2_W6 : W6 m ρ c (Proc.devRef .tc main_arg2) = m ((c : Thread nD τ).loc main_arg2) :=
  (W6_of_ne m ρ c main_arg2 (by decide)).trans
    ((show W5 m ρ c (Proc.devRef .tc main_arg2) = W4 m ρ c (Proc.devRef .tc main_arg2) by host_keep hostOps2).trans (arg2_W4 m ρ c))

theorem arg2_W8 : W8 m ρ c (Proc.devRef .tc main_arg2) = m ((c : Thread nD τ).loc main_arg2) :=
  (W8_of_ne m ρ c main_arg2 (by decide)).trans
    ((show W7 m ρ c (Proc.devRef .tc main_arg2) = W6 m ρ c (Proc.devRef .tc main_arg2) by host_keep hostOps3).trans (arg2_W6 m ρ c))

theorem arg9_W2 : W2 m ρ c (Proc.devRef .tc main_arg9) = m ((c : Thread nD τ).loc main_arg9) :=
  (W2_of_ne m ρ c main_arg9 (by decide)).trans (by host_keep hostOps0)

theorem arg9_W4 : W4 m ρ c (Proc.devRef .tc main_arg9) = m ((c : Thread nD τ).loc main_arg9) :=
  (W4_of_ne m ρ c main_arg9 (by decide)).trans
    ((show W3 m ρ c (Proc.devRef .tc main_arg9) = W2 m ρ c (Proc.devRef .tc main_arg9) by host_keep hostOps1).trans (arg9_W2 m ρ c))

theorem arg9_W6 : W6 m ρ c (Proc.devRef .tc main_arg9) = m ((c : Thread nD τ).loc main_arg9) :=
  (W6_of_ne m ρ c main_arg9 (by decide)).trans
    ((show W5 m ρ c (Proc.devRef .tc main_arg9) = W4 m ρ c (Proc.devRef .tc main_arg9) by host_keep hostOps2).trans (arg9_W4 m ρ c))

theorem arg9_W8 : W8 m ρ c (Proc.devRef .tc main_arg9) = m ((c : Thread nD τ).loc main_arg9) :=
  (W8_of_ne m ρ c main_arg9 (by decide)).trans
    ((show W7 m ρ c (Proc.devRef .tc main_arg9) = W6 m ρ c (Proc.devRef .tc main_arg9) by host_keep hostOps3).trans (arg9_W6 m ρ c))

theorem arg11_W2 : W2 m ρ c (Proc.devRef .tc main_arg11) = m ((c : Thread nD τ).loc main_arg11) :=
  (W2_of_ne m ρ c main_arg11 (by decide)).trans (by host_keep hostOps0)

theorem arg11_W4 : W4 m ρ c (Proc.devRef .tc main_arg11) = m ((c : Thread nD τ).loc main_arg11) :=
  (W4_of_ne m ρ c main_arg11 (by decide)).trans
    ((show W3 m ρ c (Proc.devRef .tc main_arg11) = W2 m ρ c (Proc.devRef .tc main_arg11) by host_keep hostOps1).trans (arg11_W2 m ρ c))

theorem arg11_W6 : W6 m ρ c (Proc.devRef .tc main_arg11) = m ((c : Thread nD τ).loc main_arg11) :=
  (W6_of_ne m ρ c main_arg11 (by decide)).trans
    ((show W5 m ρ c (Proc.devRef .tc main_arg11) = W4 m ρ c (Proc.devRef .tc main_arg11) by host_keep hostOps2).trans (arg11_W4 m ρ c))

theorem arg11_W8 : W8 m ρ c (Proc.devRef .tc main_arg11) = m ((c : Thread nD τ).loc main_arg11) :=
  (W8_of_ne m ρ c main_arg11 (by decide)).trans
    ((show W7 m ρ c (Proc.devRef .tc main_arg11) = W6 m ρ c (Proc.devRef .tc main_arg11) by host_keep hostOps3).trans (arg11_W6 m ρ c))

theorem arg13_W2 : W2 m ρ c (Proc.devRef .tc main_arg13) = m ((c : Thread nD τ).loc main_arg13) :=
  (W2_of_ne m ρ c main_arg13 (by decide)).trans (by host_keep hostOps0)

theorem arg13_W4 : W4 m ρ c (Proc.devRef .tc main_arg13) = m ((c : Thread nD τ).loc main_arg13) :=
  (W4_of_ne m ρ c main_arg13 (by decide)).trans
    ((show W3 m ρ c (Proc.devRef .tc main_arg13) = W2 m ρ c (Proc.devRef .tc main_arg13) by host_keep hostOps1).trans (arg13_W2 m ρ c))

theorem arg13_W6 : W6 m ρ c (Proc.devRef .tc main_arg13) = m ((c : Thread nD τ).loc main_arg13) :=
  (W6_of_ne m ρ c main_arg13 (by decide)).trans
    ((show W5 m ρ c (Proc.devRef .tc main_arg13) = W4 m ρ c (Proc.devRef .tc main_arg13) by host_keep hostOps2).trans (arg13_W4 m ρ c))

theorem arg13_W8 : W8 m ρ c (Proc.devRef .tc main_arg13) = m ((c : Thread nD τ).loc main_arg13) :=
  (W8_of_ne m ρ c main_arg13 (by decide)).trans
    ((show W7 m ρ c (Proc.devRef .tc main_arg13) = W6 m ρ c (Proc.devRef .tc main_arg13) by host_keep hostOps3).trans (arg13_W6 m ρ c))

theorem arg8_W2 : W2 m ρ c (Proc.devRef .tc main_arg8) = m ((c : Thread nD τ).loc main_arg8) :=
  (W2_of_ne m ρ c main_arg8 (by decide)).trans (by host_keep hostOps0)

theorem arg8_W4 : W4 m ρ c (Proc.devRef .tc main_arg8) = m ((c : Thread nD τ).loc main_arg8) :=
  (W4_of_ne m ρ c main_arg8 (by decide)).trans
    ((show W3 m ρ c (Proc.devRef .tc main_arg8) = W2 m ρ c (Proc.devRef .tc main_arg8) by host_keep hostOps1).trans (arg8_W2 m ρ c))

theorem arg8_W6 : W6 m ρ c (Proc.devRef .tc main_arg8) = m ((c : Thread nD τ).loc main_arg8) :=
  (W6_of_ne m ρ c main_arg8 (by decide)).trans
    ((show W5 m ρ c (Proc.devRef .tc main_arg8) = W4 m ρ c (Proc.devRef .tc main_arg8) by host_keep hostOps2).trans (arg8_W4 m ρ c))

theorem arg8_W8 : W8 m ρ c (Proc.devRef .tc main_arg8) = m ((c : Thread nD τ).loc main_arg8) :=
  (W8_of_ne m ρ c main_arg8 (by decide)).trans
    ((show W7 m ρ c (Proc.devRef .tc main_arg8) = W6 m ρ c (Proc.devRef .tc main_arg8) by host_keep hostOps3).trans (arg8_W6 m ρ c))

theorem arg8_W9 : W9 m ρ c (Proc.devRef .tc main_arg8) = m ((c : Thread nD τ).loc main_arg8) :=
  (show W9 m ρ c (Proc.devRef .tc main_arg8) = W8 m ρ c (Proc.devRef .tc main_arg8) by host_keep hostOps4).trans (arg8_W8 m ρ c)

theorem arg10_W2 : W2 m ρ c (Proc.devRef .tc main_arg10) = m ((c : Thread nD τ).loc main_arg10) :=
  (W2_of_ne m ρ c main_arg10 (by decide)).trans (by host_keep hostOps0)

theorem arg10_W4 : W4 m ρ c (Proc.devRef .tc main_arg10) = m ((c : Thread nD τ).loc main_arg10) :=
  (W4_of_ne m ρ c main_arg10 (by decide)).trans
    ((show W3 m ρ c (Proc.devRef .tc main_arg10) = W2 m ρ c (Proc.devRef .tc main_arg10) by host_keep hostOps1).trans (arg10_W2 m ρ c))

theorem arg10_W6 : W6 m ρ c (Proc.devRef .tc main_arg10) = m ((c : Thread nD τ).loc main_arg10) :=
  (W6_of_ne m ρ c main_arg10 (by decide)).trans
    ((show W5 m ρ c (Proc.devRef .tc main_arg10) = W4 m ρ c (Proc.devRef .tc main_arg10) by host_keep hostOps2).trans (arg10_W4 m ρ c))

theorem arg10_W8 : W8 m ρ c (Proc.devRef .tc main_arg10) = m ((c : Thread nD τ).loc main_arg10) :=
  (W8_of_ne m ρ c main_arg10 (by decide)).trans
    ((show W7 m ρ c (Proc.devRef .tc main_arg10) = W6 m ρ c (Proc.devRef .tc main_arg10) by host_keep hostOps3).trans (arg10_W6 m ρ c))

theorem arg10_W9 : W9 m ρ c (Proc.devRef .tc main_arg10) = m ((c : Thread nD τ).loc main_arg10) :=
  (show W9 m ρ c (Proc.devRef .tc main_arg10) = W8 m ρ c (Proc.devRef .tc main_arg10) by host_keep hostOps4).trans (arg10_W8 m ρ c)

theorem arg12_W2 : W2 m ρ c (Proc.devRef .tc main_arg12) = m ((c : Thread nD τ).loc main_arg12) :=
  (W2_of_ne m ρ c main_arg12 (by decide)).trans (by host_keep hostOps0)

theorem arg12_W4 : W4 m ρ c (Proc.devRef .tc main_arg12) = m ((c : Thread nD τ).loc main_arg12) :=
  (W4_of_ne m ρ c main_arg12 (by decide)).trans
    ((show W3 m ρ c (Proc.devRef .tc main_arg12) = W2 m ρ c (Proc.devRef .tc main_arg12) by host_keep hostOps1).trans (arg12_W2 m ρ c))

theorem arg12_W6 : W6 m ρ c (Proc.devRef .tc main_arg12) = m ((c : Thread nD τ).loc main_arg12) :=
  (W6_of_ne m ρ c main_arg12 (by decide)).trans
    ((show W5 m ρ c (Proc.devRef .tc main_arg12) = W4 m ρ c (Proc.devRef .tc main_arg12) by host_keep hostOps2).trans (arg12_W4 m ρ c))

theorem arg12_W8 : W8 m ρ c (Proc.devRef .tc main_arg12) = m ((c : Thread nD τ).loc main_arg12) :=
  (W8_of_ne m ρ c main_arg12 (by decide)).trans
    ((show W7 m ρ c (Proc.devRef .tc main_arg12) = W6 m ρ c (Proc.devRef .tc main_arg12) by host_keep hostOps3).trans (arg12_W6 m ρ c))

theorem arg12_W9 : W9 m ρ c (Proc.devRef .tc main_arg12) = m ((c : Thread nD τ).loc main_arg12) :=
  (show W9 m ρ c (Proc.devRef .tc main_arg12) = W8 m ρ c (Proc.devRef .tc main_arg12) by host_keep hostOps4).trans (arg12_W8 m ρ c)

end Cert.KernelIdeal.Fold

end
-- ==== Proof.Spec.lean ====
/-
  What the network computes, entry by entry, on the extended reals.

  Every dense layer of the model is an affine map followed (except the last) by a rectification:
  entry (p, q) of the layer is  max(Σₖ x(p,k)·w(k,q) + b(q), 0).  A graph-convolution layer adds a second
  product (the aggregated neighbour messages through one weight matrix, the node's own features through
  another) before the bias.  The readout is three dense layers in a row, the last one not rectified.
  The floating-point zero is kept as its word: both programs spell the same word, so it is never evaluated.
-/
import Idealize.ShloMosaic.PureOps.Ideal
import Idealize.ShloMosaic.Lib.ValueIdx

noncomputable section

namespace Cert.Spec

open Idealize.ShloMosaic Idealize.ShloMosaic.ValueIdx

/-- The word of the floating-point zero, at its ideal value. -/
abbrev zero32 : EReal := Ideal.ofBits .f32 0x00000000#32

/-- Entry (p, q) of the matrix product x · w. -/
def dotAt {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- Entry (p, q) of a rectified dense layer: max(x·w + b, 0). -/
def denseAt {M K N : ℕ} (x : (⟨2, ![M, K]⟩ : Shape).Idx → EReal) (w : (⟨2, ![K, N]⟩ : Shape).Idx → EReal)
    (b : Fin N → EReal) (p : Fin M) (q : Fin N) : EReal :=
  max (dotAt x w p q + b q) zero32

/-- Entry (p, q) of a rectified graph-convolution layer: max((msg·wrel + h·wroot) + b, 0). -/
def convAt {M K N : ℕ} (msg h : (⟨2, ![M, K]⟩ : Shape).Idx → EReal)
    (wrel wroot : (⟨2, ![K, N]⟩ : Shape).Idx → EReal) (b : Fin N → EReal) (p : Fin M) (q : Fin N) : EReal :=
  max ((dotAt msg wrel p q + dotAt h wroot p q) + b q) zero32

/-- A rectified dense layer as an array. -/
def dense {M K N : ℕ} (x : (⟨2, ![M, K]⟩ : Shape).Idx → EReal) (w : (⟨2, ![K, N]⟩ : Shape).Idx → EReal)
    (b : Fin N → EReal) : (⟨2, ![M, N]⟩ : Shape).Idx → EReal :=
  fun i => denseAt x w b (i 0) (i 1)

/-- A rectified graph-convolution layer as an array. -/
def conv {M K N : ℕ} (msg h : (⟨2, ![M, K]⟩ : Shape).Idx → EReal)
    (wrel wroot : (⟨2, ![K, N]⟩ : Shape).Idx → EReal) (b : Fin N → EReal) : (⟨2, ![M, N]⟩ : Shape).Idx → EReal :=
  fun i => convAt msg h wrel wroot b (i 0) (i 1)

/-- Entry (p, q) of the readout: two rectified dense layers and a last affine one. -/
def headAt {M K1 K2 K3 N : ℕ} (x : (⟨2, ![M, K1]⟩ : Shape).Idx → EReal)
    (w1 : (⟨2, ![K1, K2]⟩ : Shape).Idx → EReal) (b1 : Fin K2 → EReal)
    (w2 : (⟨2, ![K2, K3]⟩ : Shape).Idx → EReal) (b2 : Fin K3 → EReal)
    (w3 : (⟨2, ![K3, N]⟩ : Shape).Idx → EReal) (b3 : Fin N → EReal) (p : Fin M) (q : Fin N) : EReal :=
  dotAt (dense (dense x w1 b1) w2 b2) w3 p q + b3 q

/-- The readout as an array. -/
def head {M K1 K2 K3 N : ℕ} (x : (⟨2, ![M, K1]⟩ : Shape).Idx → EReal)
    (w1 : (⟨2, ![K1, K2]⟩ : Shape).Idx → EReal) (b1 : Fin K2 → EReal)
    (w2 : (⟨2, ![K2, K3]⟩ : Shape).Idx → EReal) (b2 : Fin K3 → EReal)
    (w3 : (⟨2, ![K3, N]⟩ : Shape).Idx → EReal) (b3 : Fin N → EReal) : (⟨2, ![M, N]⟩ : Shape).Idx → EReal :=
  fun i => headAt x w1 b1 w2 b2 w3 b3 (i 0) (i 1)

end Cert.Spec

end
-- ==== Proof.LibMatmulRead.lean ====
/-
  A matrix product read at an entry.

  For a product of an `[M, K]` matrix by a `[K, N]` matrix whose dimension record contracts the left operand's columns
  against the right operand's rows, the entry `(p, j)` of the product into a zero accumulator is `∑ₖ L(p, k) · R(k, j)`:
  the contraction index, a one-axis index, is re-indexed by its single coordinate.
-/
import Idealize.ShloMosaic.PureOps.Ideal.Laws
import Idealize.ShloMosaic.Lib.ValueIdx

noncomputable section

namespace Cert.Contract

open Idealize.ShloMosaic Idealize.ShloMosaic.ValueIdx

/-- Entry `(p, j)` of `L · R` accumulated from zero, given where the record sends an output index and a contraction
    index in each operand (`hl0 … hr1`: rows of the left operand follow the output's rows, its columns the contraction;
    rows of the right operand follow the contraction, its columns the output's columns). -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (L : FVec Ideal ⟨2, ![M, K]⟩ φ₁) (R : FVec Ideal ⟨2, ![K, N]⟩ φ₂) (p : Fin M) (j : Fin N) :
    FloatOps.matmul D prec L R (constant (F := Ideal) ⟨2, ![M, N]⟩ .f32 0x00000000#32) (ix2 p j)
      = ∑ k : Fin K, L (ix2 p k) * R (ix2 k j) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

end Cert.Contract

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.PayEmbed.lean ====
/-
  The embedding kernel's stored value, read at an entry.

  The body stores max(x·w + b, 0) for its block of 5000 rows: the product onto a zero accumulator is the sum
  over the 11 input features, the one-row bias is broadcast down the rows, and the rounding of the operands to a
  shorter format is the identity on ideal values.
-/
import proofs.«180806_j54133767798874_1_alg».proof.Proof.Gen.KernelIdeal.Skeleton
import proofs.«180806_j54133767798874_1_alg».proof.Proof.Spec
import proofs.«180806_j54133767798874_1_alg».proof.Proof.LibMatmulRead
import proofs.«180806_j54133767798874_1_alg».proof.Proof.LibRowsProduct
import Idealize.ShloMosaic.Lib.Pipeline.Value

noncomputable section

namespace Cert.KernelIdeal.Pay

open Idealize.ShloMosaic Idealize.ShloMosaic.ValueIdx Cert.KernelIdeal Cert.KernelIdeal.Gen Cert.Spec

/-- Entry (p, q) of the stored block: the rectified affine map of the block's rows. -/
theorem embed_at (x0 : Vec Ideal S5000x11 .f32) (x1 : Vec Ideal S11x128 .f32) (x2 : Vec Ideal S1x128 .f32)
    (p : Fin 5000) (q : Fin 128) :
    k0_pay1 (F := Ideal) x0 x1 x2 (ix2 p q) = denseAt x0 x1 (fun q => x2 (ix2 (0 : Fin 1) q)) p q := by
  unfold k0_pay1 denseAt dotAt
  show max (FloatOps.matmul dot_S5000x11_S11x128_S5000x128_1_0_0_1_n_n none (truncf .bf16 x0 bitsLt_bf16_f32)
      (truncf .bf16 x1 bitsLt_bf16_f32) (constant (F := Ideal) S5000x128 .f32 0x00000000#32) (ix2 p q)
      + broadcastTo S5000x128 (shapeCast S1x128 x2 shapeCasts_S1x128_S1x128) broadcasts_S1x128_S5000x128 (ix2 p q))
      (Ideal.ofBits .f32 0x00000000#32) = _
  rw [Cert.Contract.matmul_zero_ix2 dot_S5000x11_S11x128_S5000x128_1_0_0_1_n_n none rfl rfl
      (fun i q => by unfold DotDims.lhsIdx; rw [dif_neg (by decide), dif_pos (by decide)]; rfl)
      (fun i q => dot_S5000x11_S11x128_S5000x128_1_0_0_1_n_n.lhsIdx_val_of_single rfl i q)
      (fun i q => dot_S5000x11_S11x128_S5000x128_1_0_0_1_n_n.rhsIdx_val_of_single rfl i q)
      (fun i q => by unfold DotDims.rhsIdx; rw [dif_neg (by decide), dif_pos (by decide)]; rfl),
    shapeCast_self, Cert.RowsProduct.broadcastTo_1n_an_apply]
  rfl

end Cert.KernelIdeal.Pay

end
-- ==== Proof.Blocks0.lean ====
/-
  The embedding region: its output array after the region, as one function of the arrays it found.

  The region walks 20 blocks of 5000 rows.  At block t the body sees rows 5000·t … 5000·t + 4999 of the node
  features, the whole weight matrix and the whole one-row bias, and writes back the rectified affine map of those rows
  to the same rows of the output.  The 20 blocks tile the 100000 rows, so the output array is that map of every row.
-/
import proofs.«180806_j54133767798874_1_alg».proof.Proof.Gen.KernelIdeal.Frame
import proofs.«180806_j54133767798874_1_alg».proof.Proof.PayEmbed
import Idealize.ShloMosaic.Lib.Pipeline.Value

set_option maxRecDepth 16384

noncomputable section

namespace Cert.KernelIdeal.Blocks0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: the features and the output move down with t, the weights and
    the bias stay. -/
theorem block_pos : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of block t is row 5000·t + p of the array. -/
def row (t : Fin cfg0.N) (p : Fin 5000) : Fin 100000 :=
  ⟨t.val * 5000 + p.val, by have := t.isLt; have h : cfg0.N = 20 := N_0; have := p.isLt; omega⟩

/-- The features' block at t, read at (p, k). -/
theorem read_x (c : Dev nD) (t : Fin cfg0.N) (p : Fin 5000) (k : Fin 11) :
    iblk0 V c 0 t (ix2 p k) = V c main_arg0 (ix2 (row t p) k) := by
  obtain ⟨e00, e01, -⟩ := block_pos t
  show V c main_arg0 (((cfg0.win 0).blk t).view.emb (ix2 p k)) = V c main_arg0 (ix2 (row t p) k)
  congr 1
  funext a; apply Fin.ext
  match a with
  | ⟨0, _⟩ => show win0_0.index t (0 : Fin 2) * 5000 + 1 * p.val = t.val * 5000 + p.val; omega
  | ⟨1, _⟩ => show win0_0.index t (1 : Fin 2) * 11 + 1 * k.val = k.val; omega

/-- The weights' block is the whole matrix. -/
theorem read_w (c : Dev nD) (t : Fin cfg0.N) (k : Fin 11) (q : Fin 128) :
    iblk0 V c 1 t (ix2 k q) = V c main_arg3 (ix2 k q) := by
  obtain ⟨-, -, e10, e11, -⟩ := block_pos t
  show V c main_arg3 (((cfg0.win 1).blk t).view.emb (ix2 k q)) = V c main_arg3 (ix2 k q)
  congr 1
  funext a; apply Fin.ext
  match a with
  | ⟨0, _⟩ => show win0_1.index t (0 : Fin 2) * 11 + 1 * k.val = k.val; omega
  | ⟨1, _⟩ => show win0_1.index t (1 : Fin 2) * 128 + 1 * q.val = q.val; omega

/-- The bias' block is the whole row. -/
theorem read_b (c : Dev nD) (t : Fin cfg0.N) (q : Fin 128) :
    iblk0 V c 2 t (ix2 (0 : Fin 1) q) = V c main_v0 (ix2 (0 : Fin 1) q) := by
  obtain ⟨-, -, -, -, e20, e21, -⟩ := block_pos t
  show V c main_v0 (((cfg0.win 2).blk t).view.emb (ix2 (0 : Fin 1) q)) = V c main_v0 (ix2 (0 : Fin 1) q)
  congr 1
  funext a; apply Fin.ext
  match a with
  | ⟨0, _⟩ => show win0_2.index t (0 : Fin 2) * 1 + 1 * 0 = 0; omega
  | ⟨1, _⟩ => show win0_2.index t (1 : Fin 2) * 128 + 1 * q.val = q.val; omega

/-- Entry (p, q) of the output's block at t is entry (5000·t + p, q) of the array. -/
theorem out_pos (t : Fin cfg0.N) (p : Fin 5000) (q : Fin 128) :
    ((cfg0.win 3).blk t).view.emb (ix2 p q) = ix2 (row t p) q := by
  obtain ⟨-, -, -, -, -, -, e30, e31⟩ := block_pos t
  funext a; apply Fin.ext
  match a with
  | ⟨0, _⟩ => show win0_3.index t (0 : Fin 2) * 5000 + 1 * p.val = t.val * 5000 + p.val; omega
  | ⟨1, _⟩ => show win0_3.index t (1 : Fin 2) * 128 + 1 * q.val = q.val; omega

/-- The layer the region computes, of the arrays it found. -/
abbrev layer (c : Dev nD) : (⟨2, ![100000, 128]⟩ : Shape).Idx → EReal :=
  dense (M := 100000) (K := 11) (N := 128) (V c main_arg0) (V c main_arg3) (fun q => V c main_v0 (ix2 (0 : Fin 1) q))

/-- What point t writes back is block t of the layer. -/
theorem flushed_eq (c : Dev nD) (t : Fin cfg0.N) :
    (dat0 V c).flushed 3 t = ((cfg0.win 3).blk t).view.read (Elt Ideal) (layer V c) := by
  show (cfg0.win 3).cut (grid0.coords t) ((dat0 V c).after 3 t) = _
  rw [after0_3]
  unfold out0_3
  rw [View.canon_unit_zero origin]
  simp only [View.ld_unit_zero (S := S5000x11) origin, View.ld_unit_zero (S := S11x128) origin,
    View.ld_unit_zero (S := S1x128) origin]
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (ix2 p q)
    = layer V c (((cfg0.win 3).blk t).view.emb (ix2 p q))
  rw [out_pos t p q]
  refine (Pay.embed_at (iblk0 V c 0 t) (iblk0 V c 1 t) (iblk0 V c 2 t) p q).trans ?_
  show denseAt _ _ _ p q = denseAt _ _ _ (row t p) q
  unfold denseAt dotAt
  simp only [read_x V c t, read_w V c t, read_b V c t]

/-- Every row of the array is in the block of the point its 5000-row stretch belongs to. -/
theorem final (c : Dev nD) : (dat0 V c).arrAt 3 cfg0.N = layer V c :=
  (dat0 V c).arrAt_eq_of_cover 3 (layer V c) (fun t _ => flushed_eq V c t) fun i => by
    have hN : cfg0.N = 20 := N_0
    have hi0 : (i 0).val < 100000 := (i 0).isLt
    have hi1 : (i 1).val < 128 := (i 1).isLt
    have hlt : (i 0).val / 5000 < cfg0.N := by omega
    obtain ⟨t, ht⟩ : ∃ t : Fin cfg0.N, t.val = (i 0).val / 5000 := ⟨⟨(i 0).val / 5000, hlt⟩, rfl⟩
    obtain ⟨-, -, -, -, -, -, e30, e31⟩ := block_pos t
    refine ⟨t, flush0_3 t, ?_⟩
    show i ∈ ((View.whole main_v1).slice (win0_3.rect t)).set
    rw [View.set_slice_whole, Rect.mem_set_unit]
    intro a
    match a with
    | ⟨0, _⟩ =>
      show win0_3.index t (0 : Fin 2) * 5000 ≤ (i 0).val ∧ (i 0).val < win0_3.index t (0 : Fin 2) * 5000 + 5000
      omega
    | ⟨1, _⟩ =>
      show win0_3.index t (1 : Fin 2) * 128 ≤ (i 1).val ∧ (i 1).val < win0_3.index t (1 : Fin 2) * 128 + 128
      omega

end Cert.KernelIdeal.Blocks0

end
-- ==== Proof.PayConv.lean ====
/-
  The graph-convolution kernel's stored value, read at an entry.

  The body stores max((msg·wrel + h·wroot) + b, 0) for its block of 5000 nodes: two products onto zero
  accumulators, each a sum over the 128 hidden features, added, then the one-row bias broadcast down the rows.
  The three layers' bodies are the same text, so one lemma serves the three.
-/
import proofs.«180806_j54133767798874_1_alg».proof.Proof.Gen.KernelIdeal.Skeleton
import proofs.«180806_j54133767798874_1_alg».proof.Proof.Spec
import proofs.«180806_j54133767798874_1_alg».proof.Proof.LibMatmulRead
import proofs.«180806_j54133767798874_1_alg».proof.Proof.LibRowsProduct
import Idealize.ShloMosaic.Lib.Pipeline.Value

noncomputable section

namespace Cert.KernelIdeal.Pay

open Idealize.ShloMosaic Idealize.ShloMosaic.ValueIdx Cert.KernelIdeal Cert.KernelIdeal.Gen Cert.Spec

/-- Entry (p, q) of the product of a block of 5000 rows by a 128 × 128 matrix, from zero. -/
theorem product_5000_at (L : FVec Ideal S5000x128 .bf16) (R : FVec Ideal S128x128 .bf16) (p : Fin 5000) (q : Fin 128) :
    FloatOps.matmul dot_S5000x128_S128x128_S5000x128_1_0_0_1_n_n none L R
      (constant (F := Ideal) S5000x128 .f32 0x00000000#32) (ix2 p q) = ∑ k : Fin 128, L (ix2 p k) * R (ix2 k q) :=
  Cert.Contract.matmul_zero_ix2 dot_S5000x128_S128x128_S5000x128_1_0_0_1_n_n none rfl rfl
    (fun i q => by unfold DotDims.lhsIdx; rw [dif_neg (by decide), dif_pos (by decide)]; rfl)
    (fun i q => dot_S5000x128_S128x128_S5000x128_1_0_0_1_n_n.lhsIdx_val_of_single rfl i q)
    (fun i q => dot_S5000x128_S128x128_S5000x128_1_0_0_1_n_n.rhsIdx_val_of_single rfl i q)
    (fun i q => by unfold DotDims.rhsIdx; rw [dif_neg (by decide), dif_pos (by decide)]; rfl) L R p q

/-- Entry (p, q) of the stored block of the first graph-convolution layer. -/
theorem conv_at (x0 x3 : Vec Ideal S5000x128 .f32) (x6 x9 : Vec Ideal S128x128 .f32) (x15 : Vec Ideal S1x128 .f32)
    (p : Fin 5000) (q : Fin 128) :
    k1_pay1 (F := Ideal) x0 x3 x6 x9 x15 (ix2 p q) = convAt x0 x3 x6 x9 (fun q => x15 (ix2 (0 : Fin 1) q)) p q := by
  unfold k1_pay1 convAt dotAt
  show max ((FloatOps.matmul dot_S5000x128_S128x128_S5000x128_1_0_0_1_n_n none
        (truncf .bf16 (shapeCast S5000x128 x0 shapeCasts_S5000x128_S5000x128) bitsLt_bf16_f32)
        (truncf .bf16 (shapeCast S128x128 x6 shapeCasts_S128x128_S128x128) bitsLt_bf16_f32)
        (constant (F := Ideal) S5000x128 .f32 0x00000000#32) (ix2 p q)
      + FloatOps.matmul dot_S5000x128_S128x128_S5000x128_1_0_0_1_n_n none
        (truncf .bf16 (shapeCast S5000x128 x3 shapeCasts_S5000x128_S5000x128) bitsLt_bf16_f32)
        (truncf .bf16 (shapeCast S128x128 x9 shapeCasts_S128x128_S128x128) bitsLt_bf16_f32)
        (constant (F := Ideal) S5000x128 .f32 0x00000000#32) (ix2 p q))
      + broadcastTo S5000x128 (shapeCast S1x128 x15 shapeCasts_S1x128_S1x128) broadcasts_S1x128_S5000x128 (ix2 p q))
      (Ideal.ofBits .f32 0x00000000#32) = _
  rw [product_5000_at, product_5000_at, Cert.RowsProduct.broadcastTo_1n_an_apply]
  simp only [shapeCast_self]
  rfl

/-- The second and third layers' bodies are the first's. -/
theorem conv2_eq : @k2_pay1 Ideal _ = @k1_pay1 Ideal _ := rfl
theorem conv3_eq : @k3_pay1 Ideal _ = @k1_pay1 Ideal _ := rfl

end Cert.KernelIdeal.Pay

end
-- ==== Proof.Blocks1.lean ====
/-
  Graph-convolution region 1: its output array after the region, as one function of the arrays it found.

  The region walks 20 blocks of 5000 nodes.  At block t the body sees rows 5000·t … 5000·t + 4999 of the aggregated
  messages and of the node features, both weight matrices whole and the one-row bias, and writes back the rectified
  layer for those nodes.  The blocks tile the 100000 nodes, so the output array is the layer of every node.
-/
import proofs.«180806_j54133767798874_1_alg».proof.Proof.Gen.KernelIdeal.Frame
import proofs.«180806_j54133767798874_1_alg».proof.Proof.PayConv
import Idealize.ShloMosaic.Lib.Pipeline.Value

set_option maxRecDepth 16384

noncomputable section

namespace Cert.KernelIdeal.Blocks1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: messages, features and output move down with t; the weights
    and the bias stay. -/
theorem block_pos : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row p of block t is row 5000·t + p of the array. -/
def row (t : Fin cfg1.N) (p : Fin 5000) : Fin 100000 :=
  ⟨t.val * 5000 + p.val, by have := t.isLt; have h : cfg1.N = 20 := N_1; have := p.isLt; omega⟩

/-- The messages' block at t, read at (p, k). -/
theorem read_msg (c : Dev nD) (t : Fin cfg1.N) (p : Fin 5000) (k : Fin 128) :
    iblk1 V c 0 t (ix2 p k) = V c main_v15 (ix2 (row t p) k) := by
  obtain ⟨e00, e01, -⟩ := block_pos t
  show V c main_v15 (((cfg1.win 0).blk t).view.emb (ix2 p k)) = V c main_v15 (ix2 (row t p) k)
  congr 1
  funext a; apply Fin.ext
  match a with
  | ⟨0, _⟩ => show win1_0.index t (0 : Fin 2) * 5000 + 1 * p.val = t.val * 5000 + p.val; omega
  | ⟨1, _⟩ => show win1_0.index t (1 : Fin 2) * 128 + 1 * k.val = k.val; omega

/-- The features' block at t, read at (p, k). -/
theorem read_h (c : Dev nD) (t : Fin cfg1.N) (p : Fin 5000) (k : Fin 128) :
    iblk1 V c 1 t (ix2 p k) = V c main_v1 (ix2 (row t p) k) := by
  obtain ⟨-, -, e10, e11, -⟩ := block_pos t
  show V c main_v1 (((cfg1.win 1).blk t).view.emb (ix2 p k)) = V c main_v1 (ix2 (row t p) k)
  congr 1
  funext a; apply Fin.ext
  match a with
  | ⟨0, _⟩ => show win1_1.index t (0 : Fin 2) * 5000 + 1 * p.val = t.val * 5000 + p.val; omega
  | ⟨1, _⟩ => show win1_1.index t (1 : Fin 2) * 128 + 1 * k.val = k.val; omega

/-- The message weights' block is the whole matrix. -/
theorem read_wrel (c : Dev nD) (t : Fin cfg1.N) (k : Fin 128) (q : Fin 128) :
    iblk1 V c 2 t (ix2 k q) = V c main_v17 (ix2 k q) := by
  obtain ⟨-, -, -, -, e20, e21, -⟩ := block_pos t
  show V c main_v17 (((cfg1.win 2).blk t).view.emb (ix2 k q)) = V c main_v17 (ix2 k q)
  congr 1
  funext a; apply Fin.ext
  match a with
  | ⟨0, _⟩ => show win1_2.index t (0 : Fin 2) * 128 + 1 * k.val = k.val; omega
  | ⟨1, _⟩ => show win1_2.index t (1 : Fin 2) * 128 + 1 * q.val = q.val; omega

/-- The root weights' block is the whole matrix. -/
theorem read_wroot (c : Dev nD) (t : Fin cfg1.N) (k : Fin 128) (q : Fin 128) :
    iblk1 V c 3 t (ix2 k q) = V c main_v19 (ix2 k q) := by
  obtain ⟨-, -, -, -, -, -, e30, e31, -⟩ := block_pos t
  show V c main_v19 (((cfg1.win 3).blk t).view.emb (ix2 k q)) = V c main_v19 (ix2 k q)
  congr 1
  funext a; apply Fin.ext
  match a with
  | ⟨0, _⟩ => show win1_3.index t (0 : Fin 2) * 128 + 1 * k.val = k.val; omega
  | ⟨1, _⟩ => show win1_3.index t (1 : Fin 2) * 128 + 1 * q.val = q.val; omega

/-- The bias' block is the whole row. -/
theorem read_b (c : Dev nD) (t : Fin cfg1.N) (q : Fin 128) :
    iblk1 V c 4 t (ix2 (0 : Fin 1) q) = V c main_v22 (ix2 (0 : Fin 1) q) := by
  obtain ⟨-, -, -, -, -, -, -, -, e40, e41, -⟩ := block_pos t
  show V c main_v22 (((cfg1.win 4).blk t).view.emb (ix2 (0 : Fin 1) q)) = V c main_v22 (ix2 (0 : Fin 1) q)
  congr 1
  funext a; apply Fin.ext
  match a with
  | ⟨0, _⟩ => show win1_4.index t (0 : Fin 2) * 1 + 1 * 0 = 0; omega
  | ⟨1, _⟩ => show win1_4.index t (1 : Fin 2) * 128 + 1 * q.val = q.val; omega

/-- Entry (p, q) of the output's block at t is entry (5000·t + p, q) of the array. -/
theorem out_pos (t : Fin cfg1.N) (p : Fin 5000) (q : Fin 128) :
    ((cfg1.win 5).blk t).view.emb (ix2 p q) = ix2 (row t p) q := by
  obtain ⟨-, -, -, -, -, -, -, -, -, -, e50, e51⟩ := block_pos t
  funext a; apply Fin.ext
  match a with
  | ⟨0, _⟩ => show win1_5.index t (0 : Fin 2) * 5000 + 1 * p.val = t.val * 5000 + p.val; omega
  | ⟨1, _⟩ => show win1_5.index t (1 : Fin 2) * 128 + 1 * q.val = q.val; omega

/-- The layer the region computes, of the arrays it found. -/
abbrev layer (c : Dev nD) : (⟨2, ![100000, 128]⟩ : Shape).Idx → EReal :=
  conv (M := 100000) (K := 128) (N := 128) (V c main_v15) (V c main_v1) (V c main_v17) (V c main_v19)
    (fun q => V c main_v22 (ix2 (0 : Fin 1) q))

/-- What point t writes back is block t of the layer. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin,
    View.ld_unit_zero (S := S1x128) origin]
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (ix2 p q)
    = layer V c (((cfg1.win 5).blk t).view.emb (ix2 p q))
  rw [out_pos t p q]
  refine (Pay.conv_at (iblk1 V c 0 t) (iblk1 V c 1 t) (iblk1 V c 2 t) (iblk1 V c 3 t) (iblk1 V c 4 t) p q).trans ?_
  show convAt _ _ _ _ _ p q = convAt _ _ _ _ _ (row t p) q
  unfold convAt dotAt
  simp only [read_msg V c t, read_h V c t, read_wrel V c t, read_wroot V c t, read_b V c t]

/-- Every node's row is in the block of the point its 5000-row stretch belongs to. -/
theorem final (c : Dev nD) : (dat1 V c).arrAt 5 cfg1.N = layer V c :=
  (dat1 V c).arrAt_eq_of_cover 5 (layer V c) (fun t _ => flushed_eq V c t) fun i => by
    have hN : cfg1.N = 20 := N_1
    have hi0 : (i 0).val < 100000 := (i 0).isLt
    have hi1 : (i 1).val < 128 := (i 1).isLt
    have hlt : (i 0).val / 5000 < cfg1.N := by omega
    obtain ⟨t, ht⟩ : ∃ t : Fin cfg1.N, t.val = (i 0).val / 5000 := ⟨⟨(i 0).val / 5000, hlt⟩, rfl⟩
    obtain ⟨-, -, -, -, -, -, -, -, -, -, e50, e51⟩ := block_pos t
    refine ⟨t, flush1_5 t, ?_⟩
    show i ∈ ((View.whole main_v23).slice (win1_5.rect t)).set
    rw [View.set_slice_whole, Rect.mem_set_unit]
    intro a
    match a with
    | ⟨0, _⟩ =>
      show win1_5.index t (0 : Fin 2) * 5000 ≤ (i 0).val ∧ (i 0).val < win1_5.index t (0 : Fin 2) * 5000 + 5000
      omega
    | ⟨1, _⟩ =>
      show win1_5.index t (1 : Fin 2) * 128 ≤ (i 1).val ∧ (i 1).val < win1_5.index t (1 : Fin 2) * 128 + 128
      omega

end Cert.KernelIdeal.Blocks1

end
-- ==== Proof.RefLayers.lean ====
/-
  The reference's layers, read as the same entrywise functions.

  Each of the reference's dense layers is a matrix product, a bias broadcast over the rows, a sum and a maximum with
  zero; read at an entry (p, q) it is max(Σₖ x(p,k)·w(k,q) + b(q), 0), the graph-convolution layers with their two
  products.  The stage functions below are the reference's own, one per operation; each layer's last stage is shown to
  be the layer's entrywise function of the layer's inputs.
-/
import proofs.«180806_j54133767798874_1_alg».proof.Proof.Gen.ReferenceIdeal.Read
import proofs.«180806_j54133767798874_1_alg».proof.Proof.Spec

noncomputable section

namespace Cert.ReferenceIdeal.Layers

open Idealize.ShloMosaic Idealize.ShloMosaic.ValueIdx
open Cert.ReferenceIdeal Cert.ReferenceIdeal.Read Cert.Spec

/-- A sum of products whose factors are read at re-spelt indices is the product's entry. -/
theorem sum_as_dot {M K N : ℕ} (x : (⟨2, ![M, K]⟩ : Shape).Idx → EReal) (w : (⟨2, ![K, N]⟩ : Shape).Idx → EReal)
    (p : Fin M) (q : Fin N) (L : Fin K → (⟨2, ![M, K]⟩ : Shape).Idx) (R : Fin K → (⟨2, ![K, N]⟩ : Shape).Idx)
    (hL : ∀ k, L k = ix2 p k) (hR : ∀ k, R k = ix2 k q) :
    ∑ k : Fin K, x (L k) * w (R k) = dotAt x w p q :=
  Finset.sum_congr rfl fun k _ => by rw [hL k, hR k]

variable (x0 : (⟨S100000x11, .f32⟩ : BufTy).Contents (Elt Ideal)) (x1 : (⟨S2x1600000, .i32⟩ : BufTy).Contents (Elt Ideal)) (x2 : (⟨S100000, .i32⟩ : BufTy).Contents (Elt Ideal))
  (x3 : (⟨S11x128, .f32⟩ : BufTy).Contents (Elt Ideal)) (x4 : (⟨S128, .f32⟩ : BufTy).Contents (Elt Ideal)) (x5 x6 : (⟨S3x128x128, .f32⟩ : BufTy).Contents (Elt Ideal)) (x7 : (⟨S3x128, .f32⟩ : BufTy).Contents (Elt Ideal))
  (x8 : (⟨S128x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal))
  (x12 : (⟨S64x1, .f32⟩ : BufTy).Contents (Elt Ideal)) (x13 : (⟨S1, .f32⟩ : BufTy).Contents (Elt Ideal))

/-- The embedding of the reference, as an array, is the rectified dense layer of the features. -/
theorem embed_eq : val_main_v4 (F := Ideal) x0 x3 x4
    = dense (M := 100000) (K := 11) (N := 128) x0 x3 (fun q => x4 (ix1 q)) := by
  funext i
  obtain ⟨p, q, rfl⟩ : ∃ (p : Fin 100000) (q : Fin 128), i = ix2 p q := ⟨i 0, i 1, eq_ix2 i⟩
  have hl : ∀ k : Fin 11, lidx_main_v0 (ix2 p q) k = ix2 p k := fun k => funext fun a => by
    match a with | ⟨0, _⟩ => rfl | ⟨1, _⟩ => rfl
  have hr : ∀ k : Fin 11, ridx_main_v0 (ix2 p q) k = ix2 k q := fun k => funext fun a => by
    match a with | ⟨0, _⟩ => rfl | ⟨1, _⟩ => rfl
  have hb : idx_main_v1 (idx_main_v2 (ix2 p q)) = ix1 q := funext fun a => by
    match a with | ⟨0, _⟩ => rfl
  show _ = denseAt _ _ _ p q
  unfold denseAt
  rw [val_main_v4_apply, val_main_v3_apply, val_main_v0_apply, val_main_v2_apply, val_main_v1_apply,
    val_main_call0_v0_apply, val_main_call0_cst_apply, sum_as_dot x0 x3 p q _ _ hl hr, hb]
  rfl

/-- Layer 1 of the reference, as an array, is the graph-convolution layer of its five inputs. -/
theorem conv1_eq : val_main_v31 (F := Ideal) x0 x1 x3 x4 x5 x6 x7
    = conv (M := 100000) (K := 128) (N := 128) (val_main_v18 (F := Ideal) x0 x1 x3 x4) (val_main_v4 (F := Ideal) x0 x3 x4)
        (val_main_v20 (F := Ideal) x5) (val_main_v23 (F := Ideal) x6) (fun q => val_main_v27 (F := Ideal) x7 (ix1 q)) := by
  funext i
  obtain ⟨p, q, rfl⟩ : ∃ (p : Fin 100000) (q : Fin 128), i = ix2 p q := ⟨i 0, i 1, eq_ix2 i⟩
  have hl1 : ∀ k : Fin 128, lidx_main_v21 (ix2 p q) k = ix2 p k := fun k => funext fun a => by
    match a with | ⟨0, _⟩ => rfl | ⟨1, _⟩ => rfl
  have hr1 : ∀ k : Fin 128, ridx_main_v21 (ix2 p q) k = ix2 k q := fun k => funext fun a => by
    match a with | ⟨0, _⟩ => rfl | ⟨1, _⟩ => rfl
  have hl2 : ∀ k : Fin 128, lidx_main_v24 (ix2 p q) k = ix2 p k := fun k => funext fun a => by
    match a with | ⟨0, _⟩ => rfl | ⟨1, _⟩ => rfl
  have hr2 : ∀ k : Fin 128, ridx_main_v24 (ix2 p q) k = ix2 k q := fun k => funext fun a => by
    match a with | ⟨0, _⟩ => rfl | ⟨1, _⟩ => rfl
  have hb : idx_main_v28 (idx_main_v29 (ix2 p q)) = ix1 q := funext fun a => by
    match a with | ⟨0, _⟩ => rfl
  show _ = convAt _ _ _ _ _ p q
  unfold convAt
  rw [val_main_v31_apply, val_main_v30_apply, val_main_v25_apply, val_main_v21_apply, val_main_v24_apply,
    val_main_v29_apply, val_main_v28_apply, val_main_call1_v0_apply, val_main_call1_cst_apply,
    sum_as_dot (val_main_v18 (F := Ideal) x0 x1 x3 x4) (val_main_v20 (F := Ideal) x5) p q _ _ hl1 hr1,
    sum_as_dot (val_main_v4 (F := Ideal) x0 x3 x4) (val_main_v23 (F := Ideal) x6) p q _ _ hl2 hr2, hb]
  rfl

/-- Layer 2 of the reference, as an array, is the graph-convolution layer of its five inputs. -/
theorem conv2_eq : val_main_v54 (F := Ideal) x0 x1 x3 x4 x5 x6 x7
    = conv (M := 100000) (K := 128) (N := 128) (val_main_v41 (F := Ideal) x0 x1 x3 x4 x5 x6 x7) (val_main_v31 (F := Ideal) x0 x1 x3 x4 x5 x6 x7)
        (val_main_v43 (F := Ideal) x5) (val_main_v46 (F := Ideal) x6) (fun q => val_main_v50 (F := Ideal) x7 (ix1 q)) := by
  funext i
  obtain ⟨p, q, rfl⟩ : ∃ (p : Fin 100000) (q : Fin 128), i = ix2 p q := ⟨i 0, i 1, eq_ix2 i⟩
  have hl1 : ∀ k : Fin 128, lidx_main_v44 (ix2 p q) k = ix2 p k := fun k => funext fun a => by
    match a with | ⟨0, _⟩ => rfl | ⟨1, _⟩ => rfl
  have hr1 : ∀ k : Fin 128, ridx_main_v44 (ix2 p q) k = ix2 k q := fun k => funext fun a => by
    match a with | ⟨0, _⟩ => rfl | ⟨1, _⟩ => rfl
  have hl2 : ∀ k : Fin 128, lidx_main_v47 (ix2 p q) k = ix2 p k := fun k => funext fun a => by
    match a with | ⟨0, _⟩ => rfl | ⟨1, _⟩ => rfl
  have hr2 : ∀ k : Fin 128, ridx_main_v47 (ix2 p q) k = ix2 k q := fun k => funext fun a => by
    match a with | ⟨0, _⟩ => rfl | ⟨1, _⟩ => rfl
  have hb : idx_main_v51 (idx_main_v52 (ix2 p q)) = ix1 q := funext fun a => by
    match a with | ⟨0, _⟩ => rfl
  show _ = convAt _ _ _ _ _ p q
  unfold convAt
  rw [val_main_v54_apply, val_main_v53_apply, val_main_v48_apply, val_main_v44_apply, val_main_v47_apply,
    val_main_v52_apply, val_main_v51_apply, val_main_call2_v0_apply, val_main_call2_cst_apply,
    sum_as_dot (val_main_v41 (F := Ideal) x0 x1 x3 x4 x5 x6 x7) (val_main_v43 (F := Ideal) x5) p q _ _ hl1 hr1,
    sum_as_dot (val_main_v31 (F := Ideal) x0 x1 x3 x4 x5 x6 x7) (val_main_v46 (F := Ideal) x6) p q _ _ hl2 hr2, hb]
  rfl

/-- Layer 3 of the reference, as an array, is the graph-convolution layer of its five inputs. -/
theorem conv3_eq : val_main_v77 (F := Ideal) x0 x1 x3 x4 x5 x6 x7
    = conv (M := 100000) (K := 128) (N := 128) (val_main_v64 (F := Ideal) x0 x1 x3 x4 x5 x6 x7) (val_main_v54 (F := Ideal) x0 x1 x3 x4 x5 x6 x7)
        (val_main_v66 (F := Ideal) x5) (val_main_v69 (F := Ideal) x6) (fun q => val_main_v73 (F := Ideal) x7 (ix1 q)) := by
  funext i
  obtain ⟨p, q, rfl⟩ : ∃ (p : Fin 100000) (q : Fin 128), i = ix2 p q := ⟨i 0, i 1, eq_ix2 i⟩
  have hl1 : ∀ k : Fin 128, lidx_main_v67 (ix2 p q) k = ix2 p k := fun k => funext fun a => by
    match a with | ⟨0, _⟩ => rfl | ⟨1, _⟩ => rfl
  have hr1 : ∀ k : Fin 128, ridx_main_v67 (ix2 p q) k = ix2 k q := fun k => funext fun a => by
    match a with | ⟨0, _⟩ => rfl | ⟨1, _⟩ => rfl
  have hl2 : ∀ k : Fin 128, lidx_main_v70 (ix2 p q) k = ix2 p k := fun k => funext fun a => by
    match a with | ⟨0, _⟩ => rfl | ⟨1, _⟩ => rfl
  have hr2 : ∀ k : Fin 128, ridx_main_v70 (ix2 p q) k = ix2 k q := fun k => funext fun a => by
    match a with | ⟨0, _⟩ => rfl | ⟨1, _⟩ => rfl
  have hb : idx_main_v74 (idx_main_v75 (ix2 p q)) = ix1 q := funext fun a => by
    match a with | ⟨0, _⟩ => rfl
  show _ = convAt _ _ _ _ _ p q
  unfold convAt
  rw [val_main_v77_apply, val_main_v76_apply, val_main_v71_apply, val_main_v67_apply, val_main_v70_apply,
    val_main_v75_apply, val_main_v74_apply, val_main_call3_v0_apply, val_main_call3_cst_apply,
    sum_as_dot (val_main_v64 (F := Ideal) x0 x1 x3 x4 x5 x6 x7) (val_main_v66 (F := Ideal) x5) p q _ _ hl1 hr1,
    sum_as_dot (val_main_v54 (F := Ideal) x0 x1 x3 x4 x5 x6 x7) (val_main_v69 (F := Ideal) x6) p q _ _ hl2 hr2, hb]
  rfl

end Cert.ReferenceIdeal.Layers

end
-- ==== Proof.Fold1.lean ====
/-
  The boundaries of the run, up to the first graph-convolution layer.

  Walking the run's boundaries from the launch: the bias re-laid as a row, the embedding region's output, then the
  host stretch that gathers the embedded features along the edges and sums them into their target nodes and cuts the
  first layer's weights and bias out of the stacked arrays.  At each boundary the buffers a later region reads hold
  the reference's value of the same quantity, as a function of the launch arrays.
-/
import proofs.«180806_j54133767798874_1_alg».proof.Proof.FoldArgs
import proofs.«180806_j54133767798874_1_alg».proof.Proof.Blocks0
import proofs.«180806_j54133767798874_1_alg».proof.Proof.Blocks1
import proofs.«180806_j54133767798874_1_alg».proof.Proof.RefLayers
import proofs.«180806_j54133767798874_1_alg».proof.Proof.Spec
import Idealize.ShloMosaic.PureOps.Ideal
import Idealize.ShloMosaic.Lib.ValueIdx
import Idealize.ShloMosaic.Lib.Pipeline.Value
import Idealize.ShloMosaic.Lib.StableHlo.Run

set_option maxRecDepth 16384
set_option quotPrecheck false

noncomputable section

namespace Cert.KernelIdeal.Fold

open Idealize.ShloMosaic Idealize.ShloMosaic.TcCoe Idealize.ShloMosaic.ValueIdx Idealize.ShloMosaic.StableHlo
open Idealize.SL Idealize.SL.Sem
open Cert.KernelIdeal Cert.KernelIdeal.Gen Cert.Spec

variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)
local notation "A13" => m ((c : Thread nD τ).loc main_arg13)

/-- A vector re-laid as one row, read at (0, q), is the vector at q. -/
theorem row_of_vec {n : ℕ} (v : (⟨1, ![n]⟩ : Shape).Idx → EReal) (h : (⟨1, ![n]⟩ : Shape).ShapeCasts ⟨2, ![1, n]⟩) (q : Fin n) :
    shapeCast ⟨2, ![1, n]⟩ v h (ix2 (0 : Fin 1) q) = v (ix1 q) :=
  shapeCast_apply v h (ix2 (0 : Fin 1) q) (ix1 q)
    (by rewrite [Shape.rowMajor_val_two, Shape.rowMajor_val_one]; show q.val = 0 * n + q.val; omega)

/-- The bias row the embedding region finds is the bias vector, re-laid as one row. -/
theorem v0_W1 : W1 m ρ c (Proc.devRef .tc main_v0) = shapeCast S1x128 (A4) shapeCasts_S128_S1x128 := by
  show StableHlo.after hostOps0 (W0 m ρ c) (Proc.devRef .tc main_v0) = _
  after_results
  rfl

/-- After the embedding region the node features are the reference's embedding of the launch arrays. -/
theorem v1_W2 : W2 m ρ c (Proc.devRef .tc main_v1) = Cert.ReferenceIdeal.Read.val_main_v4 (F := Ideal) A0 A3 A4 := by
  rw [W2_arr m ρ c 3, Blocks0.final (V1 m ρ) c, Cert.ReferenceIdeal.Layers.embed_eq]
  show dense (W1 m ρ c (Proc.devRef .tc main_arg0)) (W1 m ρ c (Proc.devRef .tc main_arg3))
      (fun q => W1 m ρ c (Proc.devRef .tc main_v0) (ix2 (0 : Fin 1) q)) = _
  rw [arg0_W1, arg3_W1, v0_W1]
  congr 1
  funext q
  exact row_of_vec _ _ q

/-- The embedded features are not touched by the next host stretch. -/
theorem v1_W3 : W3 m ρ c (Proc.devRef .tc main_v1) = Cert.ReferenceIdeal.Read.val_main_v4 (F := Ideal) A0 A3 A4 :=
  (show W3 m ρ c (Proc.devRef .tc main_v1) = W2 m ρ c (Proc.devRef .tc main_v1) by host_keep hostOps1).trans (v1_W2 m ρ c)

set_option maxHeartbeats 8000000 in
/-- The edges' source nodes. -/
theorem v3_W3 : W3 m ρ c (Proc.devRef .tc main_v3) = Cert.ReferenceIdeal.Read.val_main_v6 (F := Ideal) A1 := by
  show StableHlo.after hostOps1 (W2 m ρ c) (Proc.devRef .tc main_v3) = _
  after_results_simp
  rw [arg1_W2]
  rfl

set_option maxHeartbeats 8000000 in
/-- The edges' target nodes. -/
theorem v5_W3 : W3 m ρ c (Proc.devRef .tc main_v5) = Cert.ReferenceIdeal.Read.val_main_v8 (F := Ideal) A1 := by
  show StableHlo.after hostOps1 (W2 m ρ c) (Proc.devRef .tc main_v5) = _
  after_results_simp
  rw [arg1_W2]
  rfl

set_option maxHeartbeats 8000000 in
/-- The messages into the first layer: the host's gather along the edges' sources and sum into their targets, of the embedded features — the same host operations the reference applies to the same arrays. -/
theorem v15_W3 : W3 m ρ c (Proc.devRef .tc main_v15) = Cert.ReferenceIdeal.Read.val_main_v18 (F := Ideal) A0 A1 A3 A4 := by
  show StableHlo.after hostOps1 (W2 m ρ c) (Proc.devRef .tc main_v15) = _
  after_results_simp
  rw [arg1_W2, v1_W2]
  rfl

set_option maxHeartbeats 8000000 in
/-- The first layer's message weights. -/
theorem v17_W3 : W3 m ρ c (Proc.devRef .tc main_v17) = Cert.ReferenceIdeal.Read.val_main_v20 (F := Ideal) A5 := by
  show StableHlo.after hostOps1 (W2 m ρ c) (Proc.devRef .tc main_v17) = _
  after_results_simp
  rw [arg5_W2]
  rfl

set_option maxHeartbeats 8000000 in
/-- The first layer's root weights. -/
theorem v19_W3 : W3 m ρ c (Proc.devRef .tc main_v19) = Cert.ReferenceIdeal.Read.val_main_v23 (F := Ideal) A6 := by
  show StableHlo.after hostOps1 (W2 m ρ c) (Proc.devRef .tc main_v19) = _
  after_results_simp
  rw [arg6_W2]
  rfl

set_option maxHeartbeats 8000000 in
/-- The first layer's bias, re-laid as one row. -/
theorem v22_W3 : W3 m ρ c (Proc.devRef .tc main_v22) = shapeCast S1x128 (Cert.ReferenceIdeal.Read.val_main_v27 (F := Ideal) A7) shapeCasts_S128_S1x128 := by
  show StableHlo.after hostOps1 (W2 m ρ c) (Proc.devRef .tc main_v22) = _
  after_results_simp
  rw [arg7_W2]
  rfl

/-- After graph-convolution region 1 the node features are the reference's layer 1 of the launch arrays: the region
    computes the layer of the arrays it found, and those are the reference's values at that point. -/
theorem v23_W4 : W4 m ρ c (Proc.devRef .tc main_v23) = Cert.ReferenceIdeal.Read.val_main_v31 (F := Ideal) A0 A1 A3 A4 A5 A6 A7 := by
  rw [W4_arr m ρ c 5, Blocks1.final (V3 m ρ) c, Cert.ReferenceIdeal.Layers.conv1_eq]
  show conv (W3 m ρ c (Proc.devRef .tc main_v15)) (W3 m ρ c (Proc.devRef .tc main_v1))
      (W3 m ρ c (Proc.devRef .tc main_v17)) (W3 m ρ c (Proc.devRef .tc main_v19))
      (fun q => W3 m ρ c (Proc.devRef .tc main_v22) (ix2 (0 : Fin 1) q)) = _
  rw [v15_W3, v1_W3, v17_W3, v19_W3, v22_W3]
  congr 1
  funext q
  exact row_of_vec _ _ q

/-- The edges' sources pass the first layer's region. -/
theorem v3_W4 : W4 m ρ c (Proc.devRef .tc main_v3) = Cert.ReferenceIdeal.Read.val_main_v6 (F := Ideal) A1 :=
  (W4_of_ne m ρ c main_v3 (by decide)).trans (v3_W3 m ρ c)

/-- The edges' targets pass the first layer's region. -/
theorem v5_W4 : W4 m ρ c (Proc.devRef .tc main_v5) = Cert.ReferenceIdeal.Read.val_main_v8 (F := Ideal) A1 :=
  (W4_of_ne m ρ c main_v5 (by decide)).trans (v5_W3 m ρ c)

end Cert.KernelIdeal.Fold

end
-- ==== Proof.Blocks2.lean ====
/-
  Graph-convolution region 2: its output array after the region, as one function of the arrays it found.

  The region walks 20 blocks of 5000 nodes.  At block t the body sees rows 5000·t … 5000·t + 4999 of the aggregated
  messages and of the node features, both weight matrices whole and the one-row bias, and writes back the rectified
  layer for those nodes.  The blocks tile the 100000 nodes, so the output array is the layer of every node.
-/
import proofs.«180806_j54133767798874_1_alg».proof.Proof.Gen.KernelIdeal.Frame
import proofs.«180806_j54133767798874_1_alg».proof.Proof.PayConv
import Idealize.ShloMosaic.Lib.Pipeline.Value

set_option maxRecDepth 16384

noncomputable section

namespace Cert.KernelIdeal.Blocks2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: messages, features and output move down with t; the weights
    and the bias stay. -/
theorem block_pos : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row p of block t is row 5000·t + p of the array. -/
def row (t : Fin cfg2.N) (p : Fin 5000) : Fin 100000 :=
  ⟨t.val * 5000 + p.val, by have := t.isLt; have h : cfg2.N = 20 := N_2; have := p.isLt; omega⟩

/-- The messages' block at t, read at (p, k). -/
theorem read_msg (c : Dev nD) (t : Fin cfg2.N) (p : Fin 5000) (k : Fin 128) :
    iblk2 V c 0 t (ix2 p k) = V c main_v33 (ix2 (row t p) k) := by
  obtain ⟨e00, e01, -⟩ := block_pos t
  show V c main_v33 (((cfg2.win 0).blk t).view.emb (ix2 p k)) = V c main_v33 (ix2 (row t p) k)
  congr 1
  funext a; apply Fin.ext
  match a with
  | ⟨0, _⟩ => show win2_0.index t (0 : Fin 2) * 5000 + 1 * p.val = t.val * 5000 + p.val; omega
  | ⟨1, _⟩ => show win2_0.index t (1 : Fin 2) * 128 + 1 * k.val = k.val; omega

/-- The features' block at t, read at (p, k). -/
theorem read_h (c : Dev nD) (t : Fin cfg2.N) (p : Fin 5000) (k : Fin 128) :
    iblk2 V c 1 t (ix2 p k) = V c main_v23 (ix2 (row t p) k) := by
  obtain ⟨-, -, e10, e11, -⟩ := block_pos t
  show V c main_v23 (((cfg2.win 1).blk t).view.emb (ix2 p k)) = V c main_v23 (ix2 (row t p) k)
  congr 1
  funext a; apply Fin.ext
  match a with
  | ⟨0, _⟩ => show win2_1.index t (0 : Fin 2) * 5000 + 1 * p.val = t.val * 5000 + p.val; omega
  | ⟨1, _⟩ => show win2_1.index t (1 : Fin 2) * 128 + 1 * k.val = k.val; omega

/-- The message weights' block is the whole matrix. -/
theorem read_wrel (c : Dev nD) (t : Fin cfg2.N) (k : Fin 128) (q : Fin 128) :
    iblk2 V c 2 t (ix2 k q) = V c main_v35 (ix2 k q) := by
  obtain ⟨-, -, -, -, e20, e21, -⟩ := block_pos t
  show V c main_v35 (((cfg2.win 2).blk t).view.emb (ix2 k q)) = V c main_v35 (ix2 k q)
  congr 1
  funext a; apply Fin.ext
  match a with
  | ⟨0, _⟩ => show win2_2.index t (0 : Fin 2) * 128 + 1 * k.val = k.val; omega
  | ⟨1, _⟩ => show win2_2.index t (1 : Fin 2) * 128 + 1 * q.val = q.val; omega

/-- The root weights' block is the whole matrix. -/
theorem read_wroot (c : Dev nD) (t : Fin cfg2.N) (k : Fin 128) (q : Fin 128) :
    iblk2 V c 3 t (ix2 k q) = V c main_v37 (ix2 k q) := by
  obtain ⟨-, -, -, -, -, -, e30, e31, -⟩ := block_pos t
  show V c main_v37 (((cfg2.win 3).blk t).view.emb (ix2 k q)) = V c main_v37 (ix2 k q)
  congr 1
  funext a; apply Fin.ext
  match a with
  | ⟨0, _⟩ => show win2_3.index t (0 : Fin 2) * 128 + 1 * k.val = k.val; omega
  | ⟨1, _⟩ => show win2_3.index t (1 : Fin 2) * 128 + 1 * q.val = q.val; omega

/-- The bias' block is the whole row. -/
theorem read_b (c : Dev nD) (t : Fin cfg2.N) (q : Fin 128) :
    iblk2 V c 4 t (ix2 (0 : Fin 1) q) = V c main_v40 (ix2 (0 : Fin 1) q) := by
  obtain ⟨-, -, -, -, -, -, -, -, e40, e41, -⟩ := block_pos t
  show V c main_v40 (((cfg2.win 4).blk t).view.emb (ix2 (0 : Fin 1) q)) = V c main_v40 (ix2 (0 : Fin 1) q)
  congr 1
  funext a; apply Fin.ext
  match a with
  | ⟨0, _⟩ => show win2_4.index t (0 : Fin 2) * 1 + 1 * 0 = 0; omega
  | ⟨1, _⟩ => show win2_4.index t (1 : Fin 2) * 128 + 1 * q.val = q.val; omega

/-- Entry (p, q) of the output's block at t is entry (5000·t + p, q) of the array. -/
theorem out_pos (t : Fin cfg2.N) (p : Fin 5000) (q : Fin 128) :
    ((cfg2.win 5).blk t).view.emb (ix2 p q) = ix2 (row t p) q := by
  obtain ⟨-, -, -, -, -, -, -, -, -, -, e50, e51⟩ := block_pos t
  funext a; apply Fin.ext
  match a with
  | ⟨0, _⟩ => show win2_5.index t (0 : Fin 2) * 5000 + 1 * p.val = t.val * 5000 + p.val; omega
  | ⟨1, _⟩ => show win2_5.index t (1 : Fin 2) * 128 + 1 * q.val = q.val; omega

/-- The layer the region computes, of the arrays it found. -/
abbrev layer (c : Dev nD) : (⟨2, ![100000, 128]⟩ : Shape).Idx → EReal :=
  conv (M := 100000) (K := 128) (N := 128) (V c main_v33) (V c main_v23) (V c main_v35) (V c main_v37)
    (fun q => V c main_v40 (ix2 (0 : Fin 1) q))

/-- What point t writes back is block t of the layer. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero origin]
  simp only [View.ld_unit_zero (S := S5000x128) origin, View.ld_unit_zero (S := S128x128) origin,
    View.ld_unit_zero (S := S1x128) origin]
  funext j
  obtain ⟨p, q, rfl⟩ : ∃ (p : Fin 5000) (q : Fin 128), j = ix2 p q := ⟨j 0, j 1, eq_ix2 j⟩
  show k1_pay1 (F := Ideal) (iblk2 V c 0 t) (iblk2 V c 1 t) (iblk2 V c 2 t) (iblk2 V c 3 t) (iblk2 V c 4 t) (ix2 p q)
    = layer V c (((cfg2.win 5).blk t).view.emb (ix2 p q))
  rw [out_pos t p q]
  refine (Pay.conv_at (iblk2 V c 0 t) (iblk2 V c 1 t) (iblk2 V c 2 t) (iblk2 V c 3 t) (iblk2 V c 4 t) p q).trans ?_
  show convAt _ _ _ _ _ p q = convAt _ _ _ _ _ (row t p) q
  unfold convAt dotAt
  simp only [read_msg V c t, read_h V c t, read_wrel V c t, read_wroot V c t, read_b V c t]

/-- Every node's row is in the block of the point its 5000-row stretch belongs to. -/
theorem final (c : Dev nD) : (dat2 V c).arrAt 5 cfg2.N = layer V c :=
  (dat2 V c).arrAt_eq_of_cover 5 (layer V c) (fun t _ => flushed_eq V c t) fun i => by
    have hN : cfg2.N = 20 := N_2
    have hi0 : (i 0).val < 100000 := (i 0).isLt
    have hi1 : (i 1).val < 128 := (i 1).isLt
    have hlt : (i 0).val / 5000 < cfg2.N := by omega
    obtain ⟨t, ht⟩ : ∃ t : Fin cfg2.N, t.val = (i 0).val / 5000 := ⟨⟨(i 0).val / 5000, hlt⟩, rfl⟩
    obtain ⟨-, -, -, -, -, -, -, -, -, -, e50, e51⟩ := block_pos t
    refine ⟨t, flush2_5 t, ?_⟩
    show i ∈ ((View.whole main_v41).slice (win2_5.rect t)).set
    rw [View.set_slice_whole, Rect.mem_set_unit]
    intro a
    match a with
    | ⟨0, _⟩ =>
      show win2_5.index t (0 : Fin 2) * 5000 ≤ (i 0).val ∧ (i 0).val < win2_5.index t (0 : Fin 2) * 5000 + 5000
      omega
    | ⟨1, _⟩ =>
      show win2_5.index t (1 : Fin 2) * 128 ≤ (i 1).val ∧ (i 1).val < win2_5.index t (1 : Fin 2) * 128 + 128
      omega

end Cert.KernelIdeal.Blocks2

end
-- ==== Proof.Fold2.lean ====
/-
  The boundaries of the run, through the second graph-convolution layer.

  The host stretch before the second layer gathers the first layer's features along the edges and sums them into
  their targets, and cuts the second layer's weights and bias out of the stacked arrays; the region then computes the
  layer.  Each buffer a later step reads holds the reference's value of the same quantity.
-/
import proofs.«180806_j54133767798874_1_alg».proof.Proof.Fold1
import proofs.«180806_j54133767798874_1_alg».proof.Proof.Blocks2
import proofs.«180806_j54133767798874_1_alg».proof.Proof.Spec
import Idealize.ShloMosaic.PureOps.Ideal
import Idealize.ShloMosaic.Lib.ValueIdx
import Idealize.ShloMosaic.Lib.Pipeline.Value
import Idealize.ShloMosaic.Lib.StableHlo.Run

set_option maxRecDepth 16384
set_option quotPrecheck false

noncomputable section

namespace Cert.KernelIdeal.Fold

open Idealize.ShloMosaic Idealize.ShloMosaic.TcCoe Idealize.ShloMosaic.ValueIdx Idealize.ShloMosaic.StableHlo
open Idealize.SL Idealize.SL.Sem
open Cert.KernelIdeal Cert.KernelIdeal.Gen Cert.Spec

variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)
local notation "A13" => m ((c : Thread nD τ).loc main_arg13)

/-- The first layer's features are not touched by the next host stretch. -/
theorem v23_W5 : W5 m ρ c (Proc.devRef .tc main_v23) = Cert.ReferenceIdeal.Read.val_main_v31 (F := Ideal) A0 A1 A3 A4 A5 A6 A7 :=
  (show W5 m ρ c (Proc.devRef .tc main_v23) = W4 m ρ c (Proc.devRef .tc main_v23) by host_keep hostOps2).trans (v23_W4 m ρ c)

/-- Nor are the edges' sources, -/
theorem v3_W5 : W5 m ρ c (Proc.devRef .tc main_v3) = Cert.ReferenceIdeal.Read.val_main_v6 (F := Ideal) A1 :=
  (show W5 m ρ c (Proc.devRef .tc main_v3) = W4 m ρ c (Proc.devRef .tc main_v3) by host_keep hostOps2).trans (v3_W4 m ρ c)

/-- nor their targets. -/
theorem v5_W5 : W5 m ρ c (Proc.devRef .tc main_v5) = Cert.ReferenceIdeal.Read.val_main_v8 (F := Ideal) A1 :=
  (show W5 m ρ c (Proc.devRef .tc main_v5) = W4 m ρ c (Proc.devRef .tc main_v5) by host_keep hostOps2).trans (v5_W4 m ρ c)

set_option maxHeartbeats 8000000 in
/-- The messages into the second layer. -/
theorem v33_W5 : W5 m ρ c (Proc.devRef .tc main_v33) = Cert.ReferenceIdeal.Read.val_main_v41 (F := Ideal) A0 A1 A3 A4 A5 A6 A7 := by
  show StableHlo.after hostOps2 (W4 m ρ c) (Proc.devRef .tc main_v33) = _
  after_results_simp
  rw [v3_W4, v5_W4, v23_W4]
  rfl

set_option maxHeartbeats 8000000 in
/-- The second layer's message weights. -/
theorem v35_W5 : W5 m ρ c (Proc.devRef .tc main_v35) = Cert.ReferenceIdeal.Read.val_main_v43 (F := Ideal) A5 := by
  show StableHlo.after hostOps2 (W4 m ρ c) (Proc.devRef .tc main_v35) = _
  after_results_simp
  rw [arg5_W4]
  rfl

set_option maxHeartbeats 8000000 in
/-- The second layer's root weights. -/
theorem v37_W5 : W5 m ρ c (Proc.devRef .tc main_v37) = Cert.ReferenceIdeal.Read.val_main_v46 (F := Ideal) A6 := by
  show StableHlo.after hostOps2 (W4 m ρ c) (Proc.devRef .tc main_v37) = _
  after_results_simp
  rw [arg6_W4]
  rfl

set_option maxHeartbeats 8000000 in
/-- The second layer's bias, re-laid as one row. -/
theorem v40_W5 : W5 m ρ c (Proc.devRef .tc main_v40) = shapeCast S1x128 (Cert.ReferenceIdeal.Read.val_main_v50 (F := Ideal) A7) shapeCasts_S128_S1x128 := by
  show StableHlo.after hostOps2 (W4 m ρ c) (Proc.devRef .tc main_v40) = _
  after_results_simp
  rw [arg7_W4]
  rfl

/-- After graph-convolution region 2 the node features are the reference's layer 2 of the launch arrays: the region
    computes the layer of the arrays it found, and those are the reference's values at that point. -/
theorem v41_W6 : W6 m ρ c (Proc.devRef .tc main_v41) = Cert.ReferenceIdeal.Read.val_main_v54 (F := Ideal) A0 A1 A3 A4 A5 A6 A7 := by
  rw [W6_arr m ρ c 5, Blocks2.final (V5 m ρ) c, Cert.ReferenceIdeal.Layers.conv2_eq]
  show conv (W5 m ρ c (Proc.devRef .tc main_v33)) (W5 m ρ c (Proc.devRef .tc main_v23))
      (W5 m ρ c (Proc.devRef .tc main_v35)) (W5 m ρ c (Proc.devRef .tc main_v37))
      (fun q => W5 m ρ c (Proc.devRef .tc main_v40) (ix2 (0 : Fin 1) q)) = _
  rw [v33_W5, v23_W5, v35_W5, v37_W5, v40_W5]
  congr 1
  funext q
  exact row_of_vec _ _ q

/-- The edges' sources pass the second layer's region. -/
theorem v3_W6 : W6 m ρ c (Proc.devRef .tc main_v3) = Cert.ReferenceIdeal.Read.val_main_v6 (F := Ideal) A1 :=
  (W6_of_ne m ρ c main_v3 (by decide)).trans (v3_W5 m ρ c)

/-- The edges' targets pass the second layer's region. -/
theorem v5_W6 : W6 m ρ c (Proc.devRef .tc main_v5) = Cert.ReferenceIdeal.Read.val_main_v8 (F := Ideal) A1 :=
  (W6_of_ne m ρ c main_v5 (by decide)).trans (v5_W5 m ρ c)

end Cert.KernelIdeal.Fold

end
-- ==== Proof.Blocks3.lean ====
/-
  Graph-convolution region 3: its output array after the region, as one function of the arrays it found.

  The region walks 20 blocks of 5000 nodes.  At block t the body sees rows 5000·t … 5000·t + 4999 of the aggregated
  messages and of the node features, both weight matrices whole and the one-row bias, and writes back the rectified
  layer for those nodes.  The blocks tile the 100000 nodes, so the output array is the layer of every node.
-/
import proofs.«180806_j54133767798874_1_alg».proof.Proof.Gen.KernelIdeal.Frame
import proofs.«180806_j54133767798874_1_alg».proof.Proof.PayConv
import Idealize.ShloMosaic.Lib.Pipeline.Value

set_option maxRecDepth 16384

noncomputable section

namespace Cert.KernelIdeal.Blocks3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at grid point t: messages, features and output move down with t; the weights
    and the bias stay. -/
theorem block_pos : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row p of block t is row 5000·t + p of the array. -/
def row (t : Fin cfg3.N) (p : Fin 5000) : Fin 100000 :=
  ⟨t.val * 5000 + p.val, by have := t.isLt; have h : cfg3.N = 20 := N_3; have := p.isLt; omega⟩

/-- The messages' block at t, read at (p, k). -/
theorem read_msg (c : Dev nD) (t : Fin cfg3.N) (p : Fin 5000) (k : Fin 128) :
    iblk3 V c 0 t (ix2 p k) = V c main_v51 (ix2 (row t p) k) := by
  obtain ⟨e00, e01, -⟩ := block_pos t
  show V c main_v51 (((cfg3.win 0).blk t).view.emb (ix2 p k)) = V c main_v51 (ix2 (row t p) k)
  congr 1
  funext a; apply Fin.ext
  match a with
  | ⟨0, _⟩ => show win3_0.index t (0 : Fin 2) * 5000 + 1 * p.val = t.val * 5000 + p.val; omega
  | ⟨1, _⟩ => show win3_0.index t (1 : Fin 2) * 128 + 1 * k.val = k.val; omega

/-- The features' block at t, read at (p, k). -/
theorem read_h (c : Dev nD) (t : Fin cfg3.N) (p : Fin 5000) (k : Fin 128) :
    iblk3 V c 1 t (ix2 p k) = V c main_v41 (ix2 (row t p) k) := by
  obtain ⟨-, -, e10, e11, -⟩ := block_pos t
  show V c main_v41 (((cfg3.win 1).blk t).view.emb (ix2 p k)) = V c main_v41 (ix2 (row t p) k)
  congr 1
  funext a; apply Fin.ext
  match a with
  | ⟨0, _⟩ => show win3_1.index t (0 : Fin 2) * 5000 + 1 * p.val = t.val * 5000 + p.val; omega
  | ⟨1, _⟩ => show win3_1.index t (1 : Fin 2) * 128 + 1 * k.val = k.val; omega

/-- The message weights' block is the whole matrix. -/
theorem read_wrel (c : Dev nD) (t : Fin cfg3.N) (k : Fin 128) (q : Fin 128) :
    iblk3 V c 2 t (ix2 k q) = V c main_v53 (ix2 k q) := by
  obtain ⟨-, -, -, -, e20, e21, -⟩ := block_pos t
  show V c main_v53 (((cfg3.win 2).blk t).view.emb (ix2 k q)) = V c main_v53 (ix2 k q)
  congr 1
  funext a; apply Fin.ext
  match a with
  | ⟨0, _⟩ => show win3_2.index t (0 : Fin 2) * 128 + 1 * k.val = k.val; omega
  | ⟨1, _⟩ => show win3_2.index t (1 : Fin 2) * 128 + 1 * q.val = q.val; omega

/-- The root weights' block is the whole matrix. -/
theorem read_wroot (c : Dev nD) (t : Fin cfg3.N) (k : Fin 128) (q : Fin 128) :
    iblk3 V c 3 t (ix2 k q) = V c main_v55 (ix2 k q) := by
  obtain ⟨-, -, -, -, -, -, e30, e31, -⟩ := block_pos t
  show V c main_v55 (((cfg3.win 3).blk t).view.emb (ix2 k q)) = V c main_v55 (ix2 k q)
  congr 1
  funext a; apply Fin.ext
  match a with
  | ⟨0, _⟩ => show win3_3.index t (0 : Fin 2) * 128 + 1 * k.val = k.val; omega
  | ⟨1, _⟩ => show win3_3.index t (1 : Fin 2) * 128 + 1 * q.val = q.val; omega

/-- The bias' block is the whole row. -/
theorem read_b (c : Dev nD) (t : Fin cfg3.N) (q : Fin 128) :
    iblk3 V c 4 t (ix2 (0 : Fin 1) q) = V c main_v58 (ix2 (0 : Fin 1) q) := by
  obtain ⟨-, -, -, -, -, -, -, -, e40, e41, -⟩ := block_pos t
  show V c main_v58 (((cfg3.win 4).blk t).view.emb (ix2 (0 : Fin 1) q)) = V c main_v58 (ix2 (0 : Fin 1) q)
  congr 1
  funext a; apply Fin.ext
  match a with
  | ⟨0, _⟩ => show win3_4.index t (0 : Fin 2) * 1 + 1 * 0 = 0; omega
  | ⟨1, _⟩ => show win3_4.index t (1 : Fin 2) * 128 + 1 * q.val = q.val; omega

/-- Entry (p, q) of the output's block at t is entry (5000·t + p, q) of the array. -/
theorem out_pos (t : Fin cfg3.N) (p : Fin 5000) (q : Fin 128) :
    ((cfg3.win 5).blk t).view.emb (ix2 p q) = ix2 (row t p) q := by
  obtain ⟨-, -, -, -, -, -, -, -, -, -, e50, e51⟩ := block_pos t
  funext a; apply Fin.ext
  match a with
  | ⟨0, _⟩ => show win3_5.index t (0 : Fin 2) * 5000 + 1 * p.val = t.val * 5000 + p.val; omega
  | ⟨1, _⟩ => show win3_5.index t (1 : Fin 2) * 128 + 1 * q.val = q.val; omega

/-- The layer the region computes, of the arrays it found. -/
abbrev layer (c : Dev nD) : (⟨2, ![100000, 128]⟩ : Shape).Idx → EReal :=
  conv (M := 100000) (K := 128) (N := 128) (V c main_v51) (V c main_v41) (V c main_v53) (V c main_v55)
    (fun q => V c main_v58 (ix2 (0 : Fin 1) q))

/-- What point t writes back is block t of the layer. -/
theorem flushed_eq (c : Dev nD) (t : Fin cfg3.N) :
    (dat3 V c).flushed 5 t = ((cfg3.win 5).blk t).view.read (Elt Ideal) (layer V c) := by
  show (cfg3.win 5).cut (grid3.coords t) ((dat3 V c).after 5 t) = _
  rw [after3_5]
  unfold out3_5
  rw [View.canon_unit_zero origin]
  simp only [View.ld_unit_zero (S := S5000x128) origin, View.ld_unit_zero (S := S128x128) origin,
    View.ld_unit_zero (S := S1x128) origin]
  funext j
  obtain ⟨p, q, rfl⟩ : ∃ (p : Fin 5000) (q : Fin 128), j = ix2 p q := ⟨j 0, j 1, eq_ix2 j⟩
  show k1_pay1 (F := Ideal) (iblk3 V c 0 t) (iblk3 V c 1 t) (iblk3 V c 2 t) (iblk3 V c 3 t) (iblk3 V c 4 t) (ix2 p q)
    = layer V c (((cfg3.win 5).blk t).view.emb (ix2 p q))
  rw [out_pos t p q]
  refine (Pay.conv_at (iblk3 V c 0 t) (iblk3 V c 1 t) (iblk3 V c 2 t) (iblk3 V c 3 t) (iblk3 V c 4 t) p q).trans ?_
  show convAt _ _ _ _ _ p q = convAt _ _ _ _ _ (row t p) q
  unfold convAt dotAt
  simp only [read_msg V c t, read_h V c t, read_wrel V c t, read_wroot V c t, read_b V c t]

/-- Every node's row is in the block of the point its 5000-row stretch belongs to. -/
theorem final (c : Dev nD) : (dat3 V c).arrAt 5 cfg3.N = layer V c :=
  (dat3 V c).arrAt_eq_of_cover 5 (layer V c) (fun t _ => flushed_eq V c t) fun i => by
    have hN : cfg3.N = 20 := N_3
    have hi0 : (i 0).val < 100000 := (i 0).isLt
    have hi1 : (i 1).val < 128 := (i 1).isLt
    have hlt : (i 0).val / 5000 < cfg3.N := by omega
    obtain ⟨t, ht⟩ : ∃ t : Fin cfg3.N, t.val = (i 0).val / 5000 := ⟨⟨(i 0).val / 5000, hlt⟩, rfl⟩
    obtain ⟨-, -, -, -, -, -, -, -, -, -, e50, e51⟩ := block_pos t
    refine ⟨t, flush3_5 t, ?_⟩
    show i ∈ ((View.whole main_v59).slice (win3_5.rect t)).set
    rw [View.set_slice_whole, Rect.mem_set_unit]
    intro a
    match a with
    | ⟨0, _⟩ =>
      show win3_5.index t (0 : Fin 2) * 5000 ≤ (i 0).val ∧ (i 0).val < win3_5.index t (0 : Fin 2) * 5000 + 5000
      omega
    | ⟨1, _⟩ =>
      show win3_5.index t (1 : Fin 2) * 128 ≤ (i 1).val ∧ (i 1).val < win3_5.index t (1 : Fin 2) * 128 + 128
      omega

end Cert.KernelIdeal.Blocks3

end
-- ==== Proof.Fold3.lean ====
/-
  The boundaries of the run, through the third graph-convolution layer.

  As for the second layer: gather and sum along the edges of the second layer's features, the third layer's weights
  and bias cut out of the stacked arrays, then the region's layer.
-/
import proofs.«180806_j54133767798874_1_alg».proof.Proof.Fold2
import proofs.«180806_j54133767798874_1_alg».proof.Proof.Blocks3
import proofs.«180806_j54133767798874_1_alg».proof.Proof.Spec
import Idealize.ShloMosaic.PureOps.Ideal
import Idealize.ShloMosaic.Lib.ValueIdx
import Idealize.ShloMosaic.Lib.Pipeline.Value
import Idealize.ShloMosaic.Lib.StableHlo.Run

set_option maxRecDepth 16384
set_option quotPrecheck false

noncomputable section

namespace Cert.KernelIdeal.Fold

open Idealize.ShloMosaic Idealize.ShloMosaic.TcCoe Idealize.ShloMosaic.ValueIdx Idealize.ShloMosaic.StableHlo
open Idealize.SL Idealize.SL.Sem
open Cert.KernelIdeal Cert.KernelIdeal.Gen Cert.Spec

variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)
local notation "A13" => m ((c : Thread nD τ).loc main_arg13)

/-- The second layer's features are not touched by the next host stretch. -/
theorem v41_W7 : W7 m ρ c (Proc.devRef .tc main_v41) = Cert.ReferenceIdeal.Read.val_main_v54 (F := Ideal) A0 A1 A3 A4 A5 A6 A7 :=
  (show W7 m ρ c (Proc.devRef .tc main_v41) = W6 m ρ c (Proc.devRef .tc main_v41) by host_keep hostOps3).trans (v41_W6 m ρ c)

set_option maxHeartbeats 8000000 in
/-- The messages into the third layer. -/
theorem v51_W7 : W7 m ρ c (Proc.devRef .tc main_v51) = Cert.ReferenceIdeal.Read.val_main_v64 (F := Ideal) A0 A1 A3 A4 A5 A6 A7 := by
  show StableHlo.after hostOps3 (W6 m ρ c) (Proc.devRef .tc main_v51) = _
  after_results_simp
  rw [v3_W6, v5_W6, v41_W6]
  rfl

set_option maxHeartbeats 8000000 in
/-- The third layer's message weights. -/
theorem v53_W7 : W7 m ρ c (Proc.devRef .tc main_v53) = Cert.ReferenceIdeal.Read.val_main_v66 (F := Ideal) A5 := by
  show StableHlo.after hostOps3 (W6 m ρ c) (Proc.devRef .tc main_v53) = _
  after_results_simp
  rw [arg5_W6]
  rfl

set_option maxHeartbeats 8000000 in
/-- The third layer's root weights. -/
theorem v55_W7 : W7 m ρ c (Proc.devRef .tc main_v55) = Cert.ReferenceIdeal.Read.val_main_v69 (F := Ideal) A6 := by
  show StableHlo.after hostOps3 (W6 m ρ c) (Proc.devRef .tc main_v55) = _
  after_results_simp
  rw [arg6_W6]
  rfl

set_option maxHeartbeats 8000000 in
/-- The third layer's bias, re-laid as one row. -/
theorem v58_W7 : W7 m ρ c (Proc.devRef .tc main_v58) = shapeCast S1x128 (Cert.ReferenceIdeal.Read.val_main_v73 (F := Ideal) A7) shapeCasts_S128_S1x128 := by
  show StableHlo.after hostOps3 (W6 m ρ c) (Proc.devRef .tc main_v58) = _
  after_results_simp
  rw [arg7_W6]
  rfl

/-- After graph-convolution region 3 the node features are the reference's layer 3 of the launch arrays: the region
    computes the layer of the arrays it found, and those are the reference's values at that point. -/
theorem v59_W8 : W8 m ρ c (Proc.devRef .tc main_v59) = Cert.ReferenceIdeal.Read.val_main_v77 (F := Ideal) A0 A1 A3 A4 A5 A6 A7 := by
  rw [W8_arr m ρ c 5, Blocks3.final (V7 m ρ) c, Cert.ReferenceIdeal.Layers.conv3_eq]
  show conv (W7 m ρ c (Proc.devRef .tc main_v51)) (W7 m ρ c (Proc.devRef .tc main_v41))
      (W7 m ρ c (Proc.devRef .tc main_v53)) (W7 m ρ c (Proc.devRef .tc main_v55))
      (fun q => W7 m ρ c (Proc.devRef .tc main_v58) (ix2 (0 : Fin 1) q)) = _
  rw [v51_W7, v41_W7, v53_W7, v55_W7, v58_W7]
  congr 1
  funext q
  exact row_of_vec _ _ q

end Cert.KernelIdeal.Fold

end
-- ==== Proof.PayHead.lean ====
/-
  The readout kernel's stored value, read at an entry.

  One grid point holds all 4096 pooled graph embeddings.  The body runs three dense layers in a row — 128 → 128 and
  128 → 64, each rectified, then 64 → 1 — every product onto a zero accumulator, every bias a one-row array
  broadcast down the rows; the roundings between the layers are the identity on ideal values.
-/
import proofs.«180806_j54133767798874_1_alg».proof.Proof.Gen.KernelIdeal.Skeleton
import proofs.«180806_j54133767798874_1_alg».proof.Proof.Spec
import proofs.«180806_j54133767798874_1_alg».proof.Proof.LibMatmulRead
import proofs.«180806_j54133767798874_1_alg».proof.Proof.LibRowsProduct
import Idealize.ShloMosaic.Lib.Pipeline.Value

noncomputable section

namespace Cert.KernelIdeal.Pay

open Idealize.ShloMosaic Idealize.ShloMosaic.ValueIdx Cert.KernelIdeal Cert.KernelIdeal.Gen Cert.Spec

theorem product_h1_at (L : FVec Ideal S4096x128 .bf16) (R : FVec Ideal S128x128 .bf16) (p : Fin 4096) (q : Fin 128) :
    FloatOps.matmul dot_S4096x128_S128x128_S4096x128_1_0_0_1_n_n none L R
      (constant (F := Ideal) S4096x128 .f32 0x00000000#32) (ix2 p q) = ∑ k : Fin 128, L (ix2 p k) * R (ix2 k q) :=
  Cert.Contract.matmul_zero_ix2 dot_S4096x128_S128x128_S4096x128_1_0_0_1_n_n none rfl rfl
    (fun i q => by unfold DotDims.lhsIdx; rw [dif_neg (by decide), dif_pos (by decide)]; rfl)
    (fun i q => dot_S4096x128_S128x128_S4096x128_1_0_0_1_n_n.lhsIdx_val_of_single rfl i q)
    (fun i q => dot_S4096x128_S128x128_S4096x128_1_0_0_1_n_n.rhsIdx_val_of_single rfl i q)
    (fun i q => by unfold DotDims.rhsIdx; rw [dif_neg (by decide), dif_pos (by decide)]; rfl) L R p q

theorem product_h2_at (L : FVec Ideal S4096x128 .bf16) (R : FVec Ideal S128x64 .bf16) (p : Fin 4096) (q : Fin 64) :
    FloatOps.matmul dot_S4096x128_S128x64_S4096x64_1_0_0_1_n_n none L R
      (constant (F := Ideal) S4096x64 .f32 0x00000000#32) (ix2 p q) = ∑ k : Fin 128, L (ix2 p k) * R (ix2 k q) :=
  Cert.Contract.matmul_zero_ix2 dot_S4096x128_S128x64_S4096x64_1_0_0_1_n_n none rfl rfl
    (fun i q => by unfold DotDims.lhsIdx; rw [dif_neg (by decide), dif_pos (by decide)]; rfl)
    (fun i q => dot_S4096x128_S128x64_S4096x64_1_0_0_1_n_n.lhsIdx_val_of_single rfl i q)
    (fun i q => dot_S4096x128_S128x64_S4096x64_1_0_0_1_n_n.rhsIdx_val_of_single rfl i q)
    (fun i q => by unfold DotDims.rhsIdx; rw [dif_neg (by decide), dif_pos (by decide)]; rfl) L R p q

theorem product_h3_at (L : FVec Ideal S4096x64 .bf16) (R : FVec Ideal S64x1 .bf16) (p : Fin 4096) (q : Fin 1) :
    FloatOps.matmul dot_S4096x64_S64x1_S4096x1_1_0_0_1_n_n none L R
      (constant (F := Ideal) S4096x1 .f32 0x00000000#32) (ix2 p q) = ∑ k : Fin 64, L (ix2 p k) * R (ix2 k q) :=
  Cert.Contract.matmul_zero_ix2 dot_S4096x64_S64x1_S4096x1_1_0_0_1_n_n none rfl rfl
    (fun i q => by unfold DotDims.lhsIdx; rw [dif_neg (by decide), dif_pos (by decide)]; rfl)
    (fun i q => dot_S4096x64_S64x1_S4096x1_1_0_0_1_n_n.lhsIdx_val_of_single rfl i q)
    (fun i q => dot_S4096x64_S64x1_S4096x1_1_0_0_1_n_n.rhsIdx_val_of_single rfl i q)
    (fun i q => by unfold DotDims.rhsIdx; rw [dif_neg (by decide), dif_pos (by decide)]; rfl) L R p q

/-- The first hidden layer as the body spells it. -/
def hid1 (x0 : Vec Ideal S4096x128 .f32) (x3 : Vec Ideal S128x128 .f32) (x6 : Vec Ideal S1x128 .f32) : FVec Ideal S4096x128 .f32 :=
  maximumf (addf (matmul dot_S4096x128_S128x128_S4096x128_1_0_0_1_n_n none
      (truncf .bf16 (shapeCast S4096x128 x0 shapeCasts_S4096x128_S4096x128) bitsLt_bf16_f32) (truncf .bf16 x3 bitsLt_bf16_f32)
      (constant S4096x128 .f32 0x00000000#32))
    (broadcastTo S4096x128 (shapeCast S1x128 x6 shapeCasts_S1x128_S1x128) broadcasts_S1x128_S4096x128))
    (broadcast S4096x128 (Scalar.ofBits .f32 0x00000000#32))

/-- The second hidden layer as the body spells it. -/
def hid2 (a : FVec Ideal S4096x128 .f32) (x13 : Vec Ideal S128x64 .f32) (x16 : Vec Ideal S1x64 .f32) : FVec Ideal S4096x64 .f32 :=
  maximumf (addf (matmul dot_S4096x128_S128x64_S4096x64_1_0_0_1_n_n none
      (truncf .bf16 a bitsLt_bf16_f32) (truncf .bf16 x13 bitsLt_bf16_f32) (constant S4096x64 .f32 0x00000000#32))
    (broadcastTo S4096x64 (shapeCast S1x64 x16 shapeCasts_S1x64_S1x64) broadcasts_S1x64_S4096x64))
    (broadcast S4096x64 (Scalar.ofBits .f32 0x00000000#32))

/-- The output layer as the body spells it. -/
def outl (a : FVec Ideal S4096x64 .f32) (x23 : Vec Ideal S64x1 .f32) (x26 : Vec Ideal S1x1 .f32) : FVec Ideal S4096x1 .f32 :=
  addf (matmul dot_S4096x64_S64x1_S4096x1_1_0_0_1_n_n none
      (truncf .bf16 a bitsLt_bf16_f32) (truncf .bf16 x23 bitsLt_bf16_f32) (constant S4096x1 .f32 0x00000000#32))
    (broadcastTo S4096x1 (shapeCast S1x1 x26 shapeCasts_S1x1_S1x1) broadcasts_S1x1_S4096x1)

/-- The stored value is the three layers composed. -/
theorem head_layers (x0 : Vec Ideal S4096x128 .f32) (x3 : Vec Ideal S128x128 .f32) (x6 : Vec Ideal S1x128 .f32)
    (x13 : Vec Ideal S128x64 .f32) (x16 : Vec Ideal S1x64 .f32) (x23 : Vec Ideal S64x1 .f32) (x26 : Vec Ideal S1x1 .f32) :
    k4_pay1 (F := Ideal) x0 x3 x6 x13 x16 x23 x26 = outl (hid2 (hid1 x0 x3 x6) x13 x16) x23 x26 := rfl

theorem hid1_eq (x0 : Vec Ideal S4096x128 .f32) (x3 : Vec Ideal S128x128 .f32) (x6 : Vec Ideal S1x128 .f32) :
    hid1 x0 x3 x6 = dense (M := 4096) (K := 128) (N := 128) x0 x3 (fun q => x6 (ix2 (0 : Fin 1) q)) := by
  funext i
  obtain ⟨p, q, rfl⟩ : ∃ (p : Fin 4096) (q : Fin 128), i = ix2 p q := ⟨i 0, i 1, eq_ix2 i⟩
  unfold hid1
  show max (FloatOps.matmul dot_S4096x128_S128x128_S4096x128_1_0_0_1_n_n none
        (truncf .bf16 (shapeCast S4096x128 x0 shapeCasts_S4096x128_S4096x128) bitsLt_bf16_f32) (truncf .bf16 x3 bitsLt_bf16_f32)
        (constant (F := Ideal) S4096x128 .f32 0x00000000#32) (ix2 p q)
      + broadcastTo S4096x128 (shapeCast S1x128 x6 shapeCasts_S1x128_S1x128) broadcasts_S1x128_S4096x128 (ix2 p q))
      (Ideal.ofBits .f32 0x00000000#32) = denseAt x0 x3 (fun q => x6 (ix2 (0 : Fin 1) q)) p q
  unfold denseAt dotAt
  rw [product_h1_at, Cert.RowsProduct.broadcastTo_1n_an_apply]
  simp only [shapeCast_self]
  rfl

theorem hid2_eq (a : FVec Ideal S4096x128 .f32) (x13 : Vec Ideal S128x64 .f32) (x16 : Vec Ideal S1x64 .f32) :
    hid2 a x13 x16 = dense (M := 4096) (K := 128) (N := 64) a x13 (fun q => x16 (ix2 (0 : Fin 1) q)) := by
  funext i
  obtain ⟨p, q, rfl⟩ : ∃ (p : Fin 4096) (q : Fin 64), i = ix2 p q := ⟨i 0, i 1, eq_ix2 i⟩
  unfold hid2
  show max (FloatOps.matmul dot_S4096x128_S128x64_S4096x64_1_0_0_1_n_n none
        (truncf .bf16 a bitsLt_bf16_f32) (truncf .bf16 x13 bitsLt_bf16_f32)
        (constant (F := Ideal) S4096x64 .f32 0x00000000#32) (ix2 p q)
      + broadcastTo S4096x64 (shapeCast S1x64 x16 shapeCasts_S1x64_S1x64) broadcasts_S1x64_S4096x64 (ix2 p q))
      (Ideal.ofBits .f32 0x00000000#32) = denseAt a x13 (fun q => x16 (ix2 (0 : Fin 1) q)) p q
  unfold denseAt dotAt
  rw [product_h2_at, Cert.RowsProduct.broadcastTo_1n_an_apply]
  simp only [shapeCast_self]
  rfl

theorem outl_at (a : FVec Ideal S4096x64 .f32) (x23 : Vec Ideal S64x1 .f32) (x26 : Vec Ideal S1x1 .f32) (p : Fin 4096) (q : Fin 1) :
    outl a x23 x26 (ix2 p q) = dotAt (M := 4096) (K := 64) (N := 1) a x23 p q + x26 (ix2 (0 : Fin 1) q) := by
  unfold outl
  show FloatOps.matmul dot_S4096x64_S64x1_S4096x1_1_0_0_1_n_n none
        (truncf .bf16 a bitsLt_bf16_f32) (truncf .bf16 x23 bitsLt_bf16_f32)
        (constant (F := Ideal) S4096x1 .f32 0x00000000#32) (ix2 p q)
      + broadcastTo S4096x1 (shapeCast S1x1 x26 shapeCasts_S1x1_S1x1) broadcasts_S1x1_S4096x1 (ix2 p q) = _
  unfold dotAt
  rw [product_h3_at, Cert.RowsProduct.broadcastTo_1n_an_apply]
  simp only [shapeCast_self]
  rfl

/-- Entry (p, q) of the stored array: the readout of the pooled embeddings. -/
theorem head_at (x0 : Vec Ideal S4096x128 .f32) (x3 : Vec Ideal S128x128 .f32) (x6 : Vec Ideal S1x128 .f32)
    (x13 : Vec Ideal S128x64 .f32) (x16 : Vec Ideal S1x64 .f32) (x23 : Vec Ideal S64x1 .f32) (x26 : Vec Ideal S1x1 .f32)
    (p : Fin 4096) (q : Fin 1) :
    k4_pay1 (F := Ideal) x0 x3 x6 x13 x16 x23 x26 (ix2 p q)
      = headAt x0 x3 (fun q => x6 (ix2 (0 : Fin 1) q)) x13 (fun q => x16 (ix2 (0 : Fin 1) q)) x23
          (fun q => x26 (ix2 (0 : Fin 1) q)) p q := by
  rw [head_layers, hid1_eq, hid2_eq, outl_at]
  rfl

end Cert.KernelIdeal.Pay

end
-- ==== Proof.Blocks4.lean ====
/-
  The readout region: its output array after the region, as one function of the arrays it found.

  The grid has one point, and at it every window's block is its whole array: the pooled embeddings, the three weight
  matrices and the three one-row biases.  So the output array is the readout of those arrays.
-/
import proofs.«180806_j54133767798874_1_alg».proof.Proof.Gen.KernelIdeal.Frame
import proofs.«180806_j54133767798874_1_alg».proof.Proof.PayHead
import Idealize.ShloMosaic.Lib.Pipeline.Value

set_option maxRecDepth 16384

noncomputable section

namespace Cert.KernelIdeal.Blocks4

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (V : (c : Dev nD) → (b : Ref sig .tc) → Buf (Elt Ideal) ((c : Thread nD τ).loc b))

theorem origin : (![0, 0] : Fin 2 → Nat) = fun _ => 0 := funext fun a => by fin_cases a <;> rfl

/-- At the one grid point every window's block is at the origin of its array. -/
theorem block_pos : ∀ t : Fin cfg4.N, ∀ a : Fin 2,
    win4_0.index t a = 0 ∧ win4_1.index t a = 0 ∧ win4_2.index t a = 0 ∧ win4_3.index t a = 0
    ∧ win4_4.index t a = 0 ∧ win4_5.index t a = 0 ∧ win4_6.index t a = 0 ∧ win4_7.index t a = 0 :=
  (by decide +kernel : ∀ t : Fin grid4.N, _)

/-- Window 0's one block is its whole array. -/
theorem blk0 (c : Dev nD) (t : Fin cfg4.N) :
    (iblk4 V c 0 t : (⟨2, ![4096, 128]⟩ : Shape).Idx → EReal) = V c main_v71 := by
  funext j
  obtain ⟨a, b, rfl⟩ : ∃ (a : Fin 4096) (b : Fin 128), j = ix2 a b := ⟨j 0, j 1, eq_ix2 j⟩
  have e0 := (block_pos t (0 : Fin 2)).1
  have e1 := (block_pos t (1 : Fin 2)).1
  show V c main_v71 (((cfg4.win 0).blk t).view.emb (ix2 a b)) = V c main_v71 (ix2 a b)
  congr 1
  funext x; apply Fin.ext
  match x with
  | ⟨0, _⟩ => show win4_0.index t (0 : Fin 2) * 4096 + 1 * a.val = a.val; omega
  | ⟨1, _⟩ => show win4_0.index t (1 : Fin 2) * 128 + 1 * b.val = b.val; omega

/-- Window 1's one block is its whole array. -/
theorem blk1 (c : Dev nD) (t : Fin cfg4.N) :
    (iblk4 V c 1 t : (⟨2, ![128, 128]⟩ : Shape).Idx → EReal) = V c main_arg8 := by
  funext j
  obtain ⟨a, b, rfl⟩ : ∃ (a : Fin 128) (b : Fin 128), j = ix2 a b := ⟨j 0, j 1, eq_ix2 j⟩
  have e0 := (block_pos t (0 : Fin 2)).2.1
  have e1 := (block_pos t (1 : Fin 2)).2.1
  show V c main_arg8 (((cfg4.win 1).blk t).view.emb (ix2 a b)) = V c main_arg8 (ix2 a b)
  congr 1
  funext x; apply Fin.ext
  match x with
  | ⟨0, _⟩ => show win4_1.index t (0 : Fin 2) * 128 + 1 * a.val = a.val; omega
  | ⟨1, _⟩ => show win4_1.index t (1 : Fin 2) * 128 + 1 * b.val = b.val; omega

/-- Window 2's one block is its whole array. -/
theorem blk2 (c : Dev nD) (t : Fin cfg4.N) :
    (iblk4 V c 2 t : (⟨2, ![1, 128]⟩ : Shape).Idx → EReal) = V c main_v72 := by
  funext j
  obtain ⟨a, b, rfl⟩ : ∃ (a : Fin 1) (b : Fin 128), j = ix2 a b := ⟨j 0, j 1, eq_ix2 j⟩
  have e0 := (block_pos t (0 : Fin 2)).2.2.1
  have e1 := (block_pos t (1 : Fin 2)).2.2.1
  show V c main_v72 (((cfg4.win 2).blk t).view.emb (ix2 a b)) = V c main_v72 (ix2 a b)
  congr 1
  funext x; apply Fin.ext
  match x with
  | ⟨0, _⟩ => show win4_2.index t (0 : Fin 2) * 1 + 1 * a.val = a.val; omega
  | ⟨1, _⟩ => show win4_2.index t (1 : Fin 2) * 128 + 1 * b.val = b.val; omega

/-- Window 3's one block is its whole array. -/
theorem blk3 (c : Dev nD) (t : Fin cfg4.N) :
    (iblk4 V c 3 t : (⟨2, ![128, 64]⟩ : Shape).Idx → EReal) = V c main_arg10 := by
  funext j
  obtain ⟨a, b, rfl⟩ : ∃ (a : Fin 128) (b : Fin 64), j = ix2 a b := ⟨j 0, j 1, eq_ix2 j⟩
  have e0 := (block_pos t (0 : Fin 2)).2.2.2.1
  have e1 := (block_pos t (1 : Fin 2)).2.2.2.1
  show V c main_arg10 (((cfg4.win 3).blk t).view.emb (ix2 a b)) = V c main_arg10 (ix2 a b)
  congr 1
  funext x; apply Fin.ext
  match x with
  | ⟨0, _⟩ => show win4_3.index t (0 : Fin 2) * 128 + 1 * a.val = a.val; omega
  | ⟨1, _⟩ => show win4_3.index t (1 : Fin 2) * 64 + 1 * b.val = b.val; omega

/-- Window 4's one block is its whole array. -/
theorem blk4 (c : Dev nD) (t : Fin cfg4.N) :
    (iblk4 V c 4 t : (⟨2, ![1, 64]⟩ : Shape).Idx → EReal) = V c main_v73 := by
  funext j
  obtain ⟨a, b, rfl⟩ : ∃ (a : Fin 1) (b : Fin 64), j = ix2 a b := ⟨j 0, j 1, eq_ix2 j⟩
  have e0 := (block_pos t (0 : Fin 2)).2.2.2.2.1
  have e1 := (block_pos t (1 : Fin 2)).2.2.2.2.1
  show V c main_v73 (((cfg4.win 4).blk t).view.emb (ix2 a b)) = V c main_v73 (ix2 a b)
  congr 1
  funext x; apply Fin.ext
  match x with
  | ⟨0, _⟩ => show win4_4.index t (0 : Fin 2) * 1 + 1 * a.val = a.val; omega
  | ⟨1, _⟩ => show win4_4.index t (1 : Fin 2) * 64 + 1 * b.val = b.val; omega

/-- Window 5's one block is its whole array. -/
theorem blk5 (c : Dev nD) (t : Fin cfg4.N) :
    (iblk4 V c 5 t : (⟨2, ![64, 1]⟩ : Shape).Idx → EReal) = V c main_arg12 := by
  funext j
  obtain ⟨a, b, rfl⟩ : ∃ (a : Fin 64) (b : Fin 1), j = ix2 a b := ⟨j 0, j 1, eq_ix2 j⟩
  have e0 := (block_pos t (0 : Fin 2)).2.2.2.2.2.1
  have e1 := (block_pos t (1 : Fin 2)).2.2.2.2.2.1
  show V c main_arg12 (((cfg4.win 5).blk t).view.emb (ix2 a b)) = V c main_arg12 (ix2 a b)
  congr 1
  funext x; apply Fin.ext
  match x with
  | ⟨0, _⟩ => show win4_5.index t (0 : Fin 2) * 64 + 1 * a.val = a.val; omega
  | ⟨1, _⟩ => show win4_5.index t (1 : Fin 2) * 1 + 1 * b.val = b.val; omega

/-- Window 6's one block is its whole array. -/
theorem blk6 (c : Dev nD) (t : Fin cfg4.N) :
    (iblk4 V c 6 t : (⟨2, ![1, 1]⟩ : Shape).Idx → EReal) = V c main_v74 := by
  funext j
  obtain ⟨a, b, rfl⟩ : ∃ (a : Fin 1) (b : Fin 1), j = ix2 a b := ⟨j 0, j 1, eq_ix2 j⟩
  have e0 := (block_pos t (0 : Fin 2)).2.2.2.2.2.2.1
  have e1 := (block_pos t (1 : Fin 2)).2.2.2.2.2.2.1
  show V c main_v74 (((cfg4.win 6).blk t).view.emb (ix2 a b)) = V c main_v74 (ix2 a b)
  congr 1
  funext x; apply Fin.ext
  match x with
  | ⟨0, _⟩ => show win4_6.index t (0 : Fin 2) * 1 + 1 * a.val = a.val; omega
  | ⟨1, _⟩ => show win4_6.index t (1 : Fin 2) * 1 + 1 * b.val = b.val; omega

/-- Entry (p, q) of the output's one block is entry (p, q) of the array. -/
theorem out_pos (t : Fin cfg4.N) (p : Fin 4096) (q : Fin 1) :
    ((cfg4.win 7).blk t).view.emb (ix2 p q) = ix2 p q := by
  have e0 := (block_pos t (0 : Fin 2)).2.2.2.2.2.2.2
  have e1 := (block_pos t (1 : Fin 2)).2.2.2.2.2.2.2
  funext x; apply Fin.ext
  match x with
  | ⟨0, _⟩ => show win4_7.index t (0 : Fin 2) * 4096 + 1 * p.val = p.val; omega
  | ⟨1, _⟩ => show win4_7.index t (1 : Fin 2) * 1 + 1 * q.val = q.val; omega

/-- The readout the region computes, of the arrays it found. -/
abbrev layer (c : Dev nD) : (⟨2, ![4096, 1]⟩ : Shape).Idx → EReal :=
  head (M := 4096) (K1 := 128) (K2 := 128) (K3 := 64) (N := 1) (V c main_v71)
    (V c main_arg8) (fun q => V c main_v72 (ix2 (0 : Fin 1) q))
    (V c main_arg10) (fun q => V c main_v73 (ix2 (0 : Fin 1) q))
    (V c main_arg12) (fun q => V c main_v74 (ix2 (0 : Fin 1) q))

/-- What the one point writes back is the readout. -/
theorem flushed_eq (c : Dev nD) (t : Fin cfg4.N) :
    (dat4 V c).flushed 7 t = ((cfg4.win 7).blk t).view.read (Elt Ideal) (layer V c) := by
  show (cfg4.win 7).cut (grid4.coords t) ((dat4 V c).after 7 t) = _
  rw [after4_7]
  unfold out4_7
  rw [View.canon_unit_zero origin]
  simp only [View.ld_unit_zero (S := S4096x128) origin, View.ld_unit_zero (S := S128x128) origin,
    View.ld_unit_zero (S := S1x128) origin, View.ld_unit_zero (S := S128x64) origin, View.ld_unit_zero (S := S1x64) origin,
    View.ld_unit_zero (S := S64x1) origin, View.ld_unit_zero (S := S1x1) origin]
  funext j
  obtain ⟨p, q, rfl⟩ : ∃ (p : Fin 4096) (q : Fin 1), j = ix2 p q := ⟨j 0, j 1, eq_ix2 j⟩
  show k4_pay1 (F := Ideal) (iblk4 V c 0 t) (iblk4 V c 1 t) (iblk4 V c 2 t) (iblk4 V c 3 t) (iblk4 V c 4 t) (iblk4 V c 5 t)
      (iblk4 V c 6 t) (ix2 p q) = layer V c (((cfg4.win 7).blk t).view.emb (ix2 p q))
  rw [out_pos t p q]
  refine (Pay.head_at (iblk4 V c 0 t) (iblk4 V c 1 t) (iblk4 V c 2 t) (iblk4 V c 3 t) (iblk4 V c 4 t) (iblk4 V c 5 t)
    (iblk4 V c 6 t) p q).trans ?_
  rw [blk0 V c t, blk1 V c t, blk2 V c t, blk3 V c t, blk4 V c t, blk5 V c t, blk6 V c t]
  rfl

/-- The one block is the whole array. -/
theorem final (c : Dev nD) : (dat4 V c).arrAt 7 cfg4.N = layer V c :=
  (dat4 V c).arrAt_eq_of_cover 7 (layer V c) (fun t _ => flushed_eq V c t) fun i => by
    have hN : cfg4.N = 1 := N_4
    have hi0 : (i 0).val < 4096 := (i 0).isLt
    have hi1 : (i 1).val < 1 := (i 1).isLt
    obtain ⟨t, ht⟩ : ∃ t : Fin cfg4.N, t.val = 0 := ⟨⟨0, by omega⟩, rfl⟩
    have e0 := (block_pos t (0 : Fin 2)).2.2.2.2.2.2.2
    have e1 := (block_pos t (1 : Fin 2)).2.2.2.2.2.2.2
    refine ⟨t, flush4_7 t, ?_⟩
    show i ∈ ((View.whole main_v75).slice (win4_7.rect t)).set
    rw [View.set_slice_whole, Rect.mem_set_unit]
    intro a
    match a with
    | ⟨0, _⟩ =>
      show win4_7.index t (0 : Fin 2) * 4096 ≤ (i 0).val ∧ (i 0).val < win4_7.index t (0 : Fin 2) * 4096 + 4096
      omega
    | ⟨1, _⟩ =>
      show win4_7.index t (1 : Fin 2) * 1 ≤ (i 1).val ∧ (i 1).val < win4_7.index t (1 : Fin 2) * 1 + 1
      omega

end Cert.KernelIdeal.Blocks4

end
-- ==== Proof.RefHead.lean ====
/-
  The reference's readout, read as the same entrywise function.

  After the mean pooling the reference applies three dense layers, the first two rectified; each is a product, a
  broadcast bias and a sum.  Read entry by entry they are the readout of the pooled embeddings.
-/
import proofs.«180806_j54133767798874_1_alg».proof.Proof.RefLayers

noncomputable section

namespace Cert.ReferenceIdeal.Layers

open Idealize.ShloMosaic Idealize.ShloMosaic.ValueIdx
open Cert.ReferenceIdeal Cert.ReferenceIdeal.Read Cert.Spec

variable (x0 : (⟨S100000x11, .f32⟩ : BufTy).Contents (Elt Ideal)) (x1 : (⟨S2x1600000, .i32⟩ : BufTy).Contents (Elt Ideal)) (x2 : (⟨S100000, .i32⟩ : BufTy).Contents (Elt Ideal))
  (x3 : (⟨S11x128, .f32⟩ : BufTy).Contents (Elt Ideal)) (x4 : (⟨S128, .f32⟩ : BufTy).Contents (Elt Ideal)) (x5 x6 : (⟨S3x128x128, .f32⟩ : BufTy).Contents (Elt Ideal)) (x7 : (⟨S3x128, .f32⟩ : BufTy).Contents (Elt Ideal))
  (x8 : (⟨S128x128, .f32⟩ : BufTy).Contents (Elt Ideal)) (x9 : (⟨S128, .f32⟩ : BufTy).Contents (Elt Ideal)) (x10 : (⟨S128x64, .f32⟩ : BufTy).Contents (Elt Ideal)) (x11 : (⟨S64, .f32⟩ : BufTy).Contents (Elt Ideal))
  (x12 : (⟨S64x1, .f32⟩ : BufTy).Contents (Elt Ideal)) (x13 : (⟨S1, .f32⟩ : BufTy).Contents (Elt Ideal))

/-- The first hidden layer of the readout. -/
theorem hidden1_eq : val_main_v94 (F := Ideal) x0 x1 x2 x3 x4 x5 x6 x7 x8 x9
    = dense (M := 4096) (K := 128) (N := 128) (val_main_v89 (F := Ideal) x0 x1 x2 x3 x4 x5 x6 x7) x8 (fun q => x9 (ix1 q)) := by
  funext i
  obtain ⟨p, q, rfl⟩ : ∃ (p : Fin 4096) (q : Fin 128), i = ix2 p q := ⟨i 0, i 1, eq_ix2 i⟩
  have hl : ∀ k : Fin 128, lidx_main_v90 (ix2 p q) k = ix2 p k := fun k => funext fun a => by
    match a with | ⟨0, _⟩ => rfl | ⟨1, _⟩ => rfl
  have hr : ∀ k : Fin 128, ridx_main_v90 (ix2 p q) k = ix2 k q := fun k => funext fun a => by
    match a with | ⟨0, _⟩ => rfl | ⟨1, _⟩ => rfl
  have hb : idx_main_v91 (idx_main_v92 (ix2 p q)) = ix1 q := funext fun a => by
    match a with | ⟨0, _⟩ => rfl
  show _ = denseAt _ _ _ p q
  unfold denseAt
  rw [val_main_v94_apply, val_main_v93_apply, val_main_v90_apply, val_main_v92_apply, val_main_v91_apply,
    val_main_call4_v0_apply, val_main_call4_cst_apply,
    sum_as_dot (val_main_v89 (F := Ideal) x0 x1 x2 x3 x4 x5 x6 x7) x8 p q _ _ hl hr, hb]
  rfl

/-- The second hidden layer of the readout. -/
theorem hidden2_eq : val_main_v99 (F := Ideal) x0 x1 x2 x3 x4 x5 x6 x7 x8 x9 x10 x11
    = dense (M := 4096) (K := 128) (N := 64) (val_main_v94 (F := Ideal) x0 x1 x2 x3 x4 x5 x6 x7 x8 x9) x10 (fun q => x11 (ix1 q)) := by
  funext i
  obtain ⟨p, q, rfl⟩ : ∃ (p : Fin 4096) (q : Fin 64), i = ix2 p q := ⟨i 0, i 1, eq_ix2 i⟩
  have hl : ∀ k : Fin 128, lidx_main_v95 (ix2 p q) k = ix2 p k := fun k => funext fun a => by
    match a with | ⟨0, _⟩ => rfl | ⟨1, _⟩ => rfl
  have hr : ∀ k : Fin 128, ridx_main_v95 (ix2 p q) k = ix2 k q := fun k => funext fun a => by
    match a with | ⟨0, _⟩ => rfl | ⟨1, _⟩ => rfl
  have hb : idx_main_v96 (idx_main_v97 (ix2 p q)) = ix1 q := funext fun a => by
    match a with | ⟨0, _⟩ => rfl
  show _ = denseAt _ _ _ p q
  unfold denseAt
  rw [val_main_v99_apply, val_main_v98_apply, val_main_v95_apply, val_main_v97_apply, val_main_v96_apply,
    val_main_call5_v0_apply, val_main_call5_cst_apply,
    sum_as_dot (val_main_v94 (F := Ideal) x0 x1 x2 x3 x4 x5 x6 x7 x8 x9) x10 p q _ _ hl hr, hb]
  rfl

/-- The reference's result is the readout of the pooled embeddings. -/
theorem head_eq : val_main_v103 (F := Ideal) x0 x1 x2 x3 x4 x5 x6 x7 x8 x9 x10 x11 x12 x13
    = head (M := 4096) (K1 := 128) (K2 := 128) (K3 := 64) (N := 1) (val_main_v89 (F := Ideal) x0 x1 x2 x3 x4 x5 x6 x7)
        x8 (fun q => x9 (ix1 q)) x10 (fun q => x11 (ix1 q)) x12 (fun q => x13 (ix1 q)) := by
  funext i
  obtain ⟨p, q, rfl⟩ : ∃ (p : Fin 4096) (q : Fin 1), i = ix2 p q := ⟨i 0, i 1, eq_ix2 i⟩
  have hl : ∀ k : Fin 64, lidx_main_v100 (ix2 p q) k = ix2 p k := fun k => funext fun a => by
    match a with | ⟨0, _⟩ => rfl | ⟨1, _⟩ => rfl
  have hr : ∀ k : Fin 64, ridx_main_v100 (ix2 p q) k = ix2 k q := fun k => funext fun a => by
    match a with | ⟨0, _⟩ => rfl | ⟨1, _⟩ => rfl
  have hb : idx_main_v101 (idx_main_v102 (ix2 p q)) = ix1 q := funext fun a => by
    match a with | ⟨0, _⟩ => exact Fin.ext (by show (0 : ℕ) = q.val; have := q.isLt; omega)
  show _ = headAt _ _ _ _ _ _ _ p q
  unfold headAt
  rw [val_main_v103_apply, val_main_v100_apply, val_main_v102_apply, val_main_v101_apply,
    sum_as_dot (val_main_v99 (F := Ideal) x0 x1 x2 x3 x4 x5 x6 x7 x8 x9 x10 x11) x12 p q _ _ hl hr, hb, hidden2_eq, hidden1_eq]
  rfl

end Cert.ReferenceIdeal.Layers

end
-- ==== Proof.Fold4.lean ====
/-
  The last boundaries of the run: the mean pooling and the readout.

  The last host stretch sums the third layer's features per graph, counts each graph's nodes, divides, and re-lays the
  readout's three bias vectors as rows; the readout region then computes the three dense layers.  The result buffer
  holds the reference's result as a function of the launch arrays.
-/
import proofs.«180806_j54133767798874_1_alg».proof.Proof.Fold3
import proofs.«180806_j54133767798874_1_alg».proof.Proof.Blocks4
import proofs.«180806_j54133767798874_1_alg».proof.Proof.RefHead
import proofs.«180806_j54133767798874_1_alg».proof.Proof.Spec
import Idealize.ShloMosaic.PureOps.Ideal
import Idealize.ShloMosaic.Lib.ValueIdx
import Idealize.ShloMosaic.Lib.Pipeline.Value
import Idealize.ShloMosaic.Lib.StableHlo.Run

set_option maxRecDepth 16384
set_option quotPrecheck false

noncomputable section

namespace Cert.KernelIdeal.Fold

open Idealize.ShloMosaic Idealize.ShloMosaic.TcCoe Idealize.ShloMosaic.ValueIdx Idealize.ShloMosaic.StableHlo
open Idealize.SL Idealize.SL.Sem
open Cert.KernelIdeal Cert.KernelIdeal.Gen Cert.Spec

variable (m : (ℓ : Loc nD τ sig) → Buf (Elt Ideal) ℓ) (ρ : Dev nD → PrngReg) (c : Dev nD)

local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)
local notation "A11" => m ((c : Thread nD τ).loc main_arg11)
local notation "A12" => m ((c : Thread nD τ).loc main_arg12)
local notation "A13" => m ((c : Thread nD τ).loc main_arg13)

set_option maxHeartbeats 8000000 in
/-- The pooled graph embeddings: the host's per-graph sums divided by the per-graph counts — the same host operations the reference applies to the same arrays. -/
theorem v71_W9 : W9 m ρ c (Proc.devRef .tc main_v71) = Cert.ReferenceIdeal.Read.val_main_v89 (F := Ideal) A0 A1 A2 A3 A4 A5 A6 A7 := by
  show StableHlo.after hostOps4 (W8 m ρ c) (Proc.devRef .tc main_v71) = _
  after_results_simp
  rw [arg2_W8, v59_W8]
  rfl

set_option maxHeartbeats 8000000 in
/-- The first readout bias, re-laid as one row. -/
theorem v72_W9 : W9 m ρ c (Proc.devRef .tc main_v72) = shapeCast S1x128 A9 shapeCasts_S128_S1x128 := by
  show StableHlo.after hostOps4 (W8 m ρ c) (Proc.devRef .tc main_v72) = _
  after_results_simp
  rw [arg9_W8]
  rfl

set_option maxHeartbeats 8000000 in
/-- The second readout bias, re-laid as one row. -/
theorem v73_W9 : W9 m ρ c (Proc.devRef .tc main_v73) = shapeCast S1x64 A11 shapeCasts_S64_S1x64 := by
  show StableHlo.after hostOps4 (W8 m ρ c) (Proc.devRef .tc main_v73) = _
  after_results_simp
  rw [arg11_W8]
  rfl

set_option maxHeartbeats 8000000 in
/-- The last readout bias, re-laid as one row. -/
theorem v74_W9 : W9 m ρ c (Proc.devRef .tc main_v74) = shapeCast S1x1 A13 shapeCasts_S1_S1x1 := by
  show StableHlo.after hostOps4 (W8 m ρ c) (Proc.devRef .tc main_v74) = _
  after_results_simp
  rw [arg13_W8]
  rfl

/-- The result buffer after the run holds the reference's result of the launch arrays. -/
theorem result : W10 m ρ c (Proc.devRef .tc main_v75)
    = Cert.ReferenceIdeal.Read.val_main_v103 (F := Ideal) A0 A1 A2 A3 A4 A5 A6 A7 A8 A9 A10 A11 A12 A13 := by
  rw [W10_arr m ρ c 7, Blocks4.final (V9 m ρ) c, Cert.ReferenceIdeal.Layers.head_eq]
  show head (W9 m ρ c (Proc.devRef .tc main_v71))
      (W9 m ρ c (Proc.devRef .tc main_arg8)) (fun q => W9 m ρ c (Proc.devRef .tc main_v72) (ix2 (0 : Fin 1) q))
      (W9 m ρ c (Proc.devRef .tc main_arg10)) (fun q => W9 m ρ c (Proc.devRef .tc main_v73) (ix2 (0 : Fin 1) q))
      (W9 m ρ c (Proc.devRef .tc main_arg12)) (fun q => W9 m ρ c (Proc.devRef .tc main_v74) (ix2 (0 : Fin 1) q)) = _
  rw [v71_W9, arg8_W9, v72_W9, arg10_W9, v73_W9, arg12_W9, v74_W9]
  have h1 : (fun q : Fin 128 => shapeCast S1x128 A9 shapeCasts_S128_S1x128 (ix2 (0 : Fin 1) q)) = fun q => A9 (ix1 q) :=
    funext fun q => row_of_vec _ _ q
  have h2 : (fun q : Fin 64 => shapeCast S1x64 A11 shapeCasts_S64_S1x64 (ix2 (0 : Fin 1) q)) = fun q => A11 (ix1 q) :=
    funext fun q => row_of_vec _ _ q
  have h3 : (fun q : Fin 1 => shapeCast S1x1 A13 shapeCasts_S1_S1x1 (ix2 (0 : Fin 1) q)) = fun q => A13 (ix1 q) :=
    funext fun q => row_of_vec _ _ q
  rw [h1, h2, h3]

end Cert.KernelIdeal.Fold

end
-- ==== Proof.lean ====
/-
  A graph neural network for per-graph regression, proved equal to its reference on ideal values.

  The model embeds 100000 nodes' 11 features into 128, applies three graph-convolution layers — each node's new
  features are max(msg·W_rel + h·W_root + b, 0), where msg sums the features of the nodes with an edge into it —,
  averages the nodes of each of 4096 graphs, and reads each graph's embedding out through three dense layers.

  The kernel program runs five regions — the embedding, the three layers' dense parts, the readout — each over blocks
  of rows, with the edge gather and sum, the pooling and the cutting of the stacked weights done by host operations
  between them; the reference does everything with host operations.  On ideal values (floats as extended reals, every
  change of format the identity) each region's output array is the same entrywise function of its inputs as the
  reference's corresponding stage — a product onto a zero accumulator is the sum of products the reference's
  contraction is, a one-row bias broadcast down the rows is the reference's bias broadcast — and the host operations
  between the regions are the reference's own, applied to equal arrays.  So, boundary by boundary, the buffers the
  kernel program holds are the reference's values, and the two results agree.  No law of arithmetic beyond this
  reading is used, so the inputs' finiteness is never opened.

  The kernel's frame is the five regions' generated frame; its idealization rewrote nothing.
-/
import proofs.«180806_j54133767798874_1_alg».proof.Defs
import proofs.«180806_j54133767798874_1_alg».proof.Proof.Gen.Kernel
import proofs.«180806_j54133767798874_1_alg».proof.Proof.Gen.Kernel.Frame
import proofs.«180806_j54133767798874_1_alg».proof.Proof.Gen.KernelIdeal
import proofs.«180806_j54133767798874_1_alg».proof.Proof.Gen.KernelIdeal.Frame
import proofs.«180806_j54133767798874_1_alg».proof.Proof.Gen.ReferenceIdeal
import proofs.«180806_j54133767798874_1_alg».proof.Proof.Gen.ReferenceIdeal.Run
import proofs.«180806_j54133767798874_1_alg».proof.Proof.Gen.ReferenceIdeal.Read
import proofs.«180806_j54133767798874_1_alg».proof.Proof.Gen.Pre_finite_inputs
import proofs.«180806_j54133767798874_1_alg».proof.Proof.RunMain
import proofs.«180806_j54133767798874_1_alg».proof.Proof.Fold4
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the reference's result function of the launch arrays, which agree. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Fold.result m ρ c), (h c).2⟩) (Cert.KernelIdeal.RunValue.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v103_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
